-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S32x2048x128 .f32) (main_arg1 : FVec F S128x128 .f32) (main_arg2 : FVec F S128x64 .f32) (main_arg3 : FVec F S64x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S_ : Shape := ⟨0, ![]⟩
abbrev S2041 : Shape := ⟨1, ![2041]⟩
abbrev S2041x1 : Shape := ⟨2, ![2041, 1]⟩
abbrev S2041x128 : Shape := ⟨2, ![2041, 128]⟩
abbrev S32x1x1 : Shape := ⟨3, ![32, 1, 1]⟩
abbrev S4x2048x128 : Shape := ⟨3, ![4, 2048, 128]⟩
abbrev S4x1x1 : Shape := ⟨3, ![4, 1, 1]⟩
abbrev S1x2048x128 : Shape := ⟨3, ![1, 2048, 128]⟩
abbrev S2048x128 : Shape := ⟨2, ![2048, 128]⟩
abbrev S2047x128 : Shape := ⟨2, ![2047, 128]⟩
abbrev S2045x128 : Shape := ⟨2, ![2045, 128]⟩
abbrev S1 : Shape := ⟨1, ![1]⟩
abbrev S1x1 : Shape := ⟨2, ![1, 1]⟩
abbrev S1x1x1 : Shape := ⟨3, ![1, 1, 1]⟩

abbrev nBuf : Space → Nat
  | .hbm => 56
  | .vmem => 6
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128x64, .f32⟩
  | .hbm, ⟨3, _⟩ => ⟨S64x128, .f32⟩
  | .hbm, ⟨4, _⟩ => ⟨S128x128, .f32⟩
  | .hbm, ⟨5, _⟩ => ⟨S_, .f32⟩
  | .hbm, ⟨6, _⟩ => ⟨S128x128, .f32⟩
  | .hbm, ⟨7, _⟩ => ⟨S128x128, .f32⟩
  | .hbm, ⟨8, _⟩ => ⟨S2041, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S2041, .i32⟩
  | .hbm, ⟨16, _⟩ => ⟨S2041, .i32⟩
  | .hbm, ⟨17, _⟩ => ⟨S_, .i32⟩
  | .hbm, ⟨18, _⟩ => ⟨S2041, .i32⟩
  | .hbm, ⟨19, _⟩ => ⟨S2041, .i1⟩
  | .hbm, ⟨20, _⟩ => ⟨S_, .i32⟩
  | .hbm, ⟨21, _⟩ => ⟨S2041, .i32⟩
  | .hbm, ⟨22, _⟩ => ⟨S2041, .i1⟩
  | .hbm, ⟨23, _⟩ => ⟨S_, .i32⟩
  | .hbm, ⟨24, _⟩ => ⟨S_, .i1⟩
  | .hbm, ⟨25, _⟩ => ⟨S2041, .i1⟩
  | .hbm, ⟨26, _⟩ => ⟨S2041, .i1⟩
  | .hbm, ⟨27, _⟩ => ⟨S2041, .i1⟩
  | .hbm, ⟨28, _⟩ => ⟨S2041, .i32⟩
  | .hbm, ⟨29, _⟩ => ⟨S2041, .i32⟩
  | .hbm, ⟨30, _⟩ => ⟨S2041, .i32⟩
  | .hbm, ⟨31, _⟩ => ⟨S64x128, .f32⟩
  | .hbm, ⟨32, _⟩ => ⟨S_, .i32⟩
  | .hbm, ⟨33, _⟩ => ⟨S2041, .i32⟩
  | .hbm, ⟨34, _⟩ => ⟨S2041, .i1⟩
  | .hbm, ⟨35, _⟩ => ⟨S_, .i32⟩
  | .hbm, ⟨36, _⟩ => ⟨S2041, .i32⟩
  | .hbm, ⟨37, _⟩ => ⟨S2041, .i32⟩
  | .hbm, ⟨38, _⟩ => ⟨S2041, .i32⟩
  | .hbm, ⟨39, _⟩ => ⟨S2041x1, .i32⟩
  | .hbm, ⟨40, _⟩ => ⟨S2041x128, .f32⟩
  | .hbm, ⟨41, _⟩ => ⟨S_, .i32⟩
  | .hbm, ⟨42, _⟩ => ⟨S2041, .i32⟩
  | .hbm, ⟨43, _⟩ => ⟨S2041, .i1⟩
  | .hbm, ⟨44, _⟩ => ⟨S_, .i32⟩
  | .hbm, ⟨45, _⟩ => ⟨S2041, .i32⟩
  | .hbm, ⟨46, _⟩ => ⟨S2041, .i32⟩
  | .hbm, ⟨47, _⟩ => ⟨S2041, .i32⟩
  | .hbm, ⟨48, _⟩ => ⟨S2041x1, .i32⟩
  | .hbm, ⟨49, _⟩ => ⟨S2041x128, .f32⟩
  | .hbm, ⟨50, _⟩ => ⟨S2041x128, .f32⟩
  | .hbm, ⟨51, _⟩ => ⟨S32x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S4x2048x128, .f32⟩
  | .local _ .vmem, ⟨1, _⟩ => ⟨S4x2048x128, .f32⟩
  | .local _ .vmem, ⟨2, _⟩ => ⟨S128x128, .f32⟩
  | .local _ .vmem, ⟨3, _⟩ => ⟨S2041x128, .f32⟩
  | .local _ .vmem, ⟨4, _⟩ => ⟨S4x1x1, .f32⟩
  | .local _ .vmem, ⟨5, _⟩ => ⟨S4x1x1, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4 : Index := Scalar.indexCast arg5
  let c0_2 : Index := 0#32
  let c0_3 : Index := 0#32
  ![v4.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v26 : Index := Scalar.indexCast arg5
  let c0_8 : Index := 0#32
  let c0_9 : Index := 0#32
  ![v26.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2041x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  bcast_S_S128x128 : S_.BroadcastsInDim S128x128 (![] : Fin 0 → Fin S128x128.rank)
  bcast_S_S2041 : S_.BroadcastsInDim S2041 (![] : Fin 0 → Fin S2041.rank)
  transposes_S128x64_S64x128_1_0 : S128x64.Transposes [1, 0] S64x128
  bcast_S2041_S2041x1_0 : S2041.BroadcastsInDim S2041x1 (![0] : Fin 1 → Fin S2041x1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  h_S1x2048x128 : 0 < S1x2048x128.numel
  shapeCasts_S1x2048x128_S2048x128 : S1x2048x128.ShapeCasts S2048x128
  slices_S2048x128_o0_0_S2047x128 : S2048x128.Slices ![0, 0] S2047x128
  slices_S2048x128_o1_0_S2047x128 : S2048x128.Slices ![1, 0] S2047x128
  slices_S2047x128_o0_0_S2045x128 : S2047x128.Slices ![0, 0] S2045x128
  slices_S2047x128_o2_0_S2045x128 : S2047x128.Slices ![2, 0] S2045x128
  slices_S2045x128_o0_0_S2041x128 : S2045x128.Slices ![0, 0] S2041x128
  slices_S2045x128_o4_0_S2041x128 : S2045x128.Slices ![4, 0] S2041x128
  inb_S2041x128_S2041x128_0_0 : ∀ a, (![0, 0] : Fin 2 → Nat) a + S2041x128.size a ≤ S2041x128.size a
  h_S2041x128 : 0 < S2041x128.numel
  shapeCasts_S2041x128_S2041x128 : S2041x128.ShapeCasts S2041x128
  reduces_S2041x128_S2041 : S2041x128.Reduces [1] S2041
  shapeCasts_S2041_S2041x1 : S2041.ShapeCasts S2041x1
  reduces_S2041x1_S1 : S2041x1.Reduces [0] S1
  shapeCasts_S1_S1x1 : S1.ShapeCasts S1x1
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  h_S_ : 0 < S_.numel
  gather_S64x128_S2041x1_S2041x128_1_0_n_n_0_1_1128_wf : GatherDims.WF S64x128 S2041x1 S2041x128 [1] [0] [] [0] [] 1 ![1, 128]
  dot_S2041x128_S128x128_S2041x128_1_0_0_1_n_n_wf : DotDims.WF S2041x128 S128x128 S2041x128 [1] [0] [0] [1] [] []
  hrank0 : 0 < grid0.rank
  k0_t1_ok : k0_t1_loop.OK
  k0_off1_inb : ∀ k0_t1 : Fin k0_t1_loop.trips, ∀ a, (k0_off1 k0_t1) a + S1x2048x128.size a ≤ S4x2048x128.size a
  k0_off2_inb : ∀ k0_t1 : Fin k0_t1_loop.trips, ∀ a, (k0_off2 k0_t1) a + S1x1x1.size a ≤ S4x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S32x2048x128.size a
  hwx0_0 : ∀ i : grid0.Coords, EltTy.bits .f32 = 32 ∨ (Rect.block (s := S32x2048x128) S4x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2041x128.size a ≤ S2041x128.size a
  hwx0_2 : ∀ i : grid0.Coords, EltTy.bits .f32 = 32 ∨ (Rect.block (s := S2041x128) S2041x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S32x1x1.size a
  hwx0_3 : ∀ i : grid0.Coords, EltTy.bits .f32 = 32 ∨ (Rect.block (s := S32x1x1) S4x1x1.size (cc0_transform_3 i) (hinb0_3 i)).WholeWords (EltTy.packing .f32)

variable [Facts₀]

def gather_S64x128_S2041x1_S2041x128_1_0_n_n_0_1_1128 : GatherDims S64x128 S2041x1 S2041x128 where
  offsetDims := [1]
  collapsedSliceDims := [0]
  operandBatchingDims := []
  startIndicesBatchingDims := []
  startIndexMap := [0]
  indexVectorDim := 1
  sliceSizes := ![1, 128]
  wf := gather_S64x128_S2041x1_S2041x128_1_0_n_n_0_1_1128_wf
def dot_S2041x128_S128x128_S2041x128_1_0_0_1_n_n : DotDims S2041x128 S128x128 S2041x128 where
  lhsContracting := [1]
  rhsContracting := [0]
  lhsNonContracting := [0]
  rhsNonContracting := [1]
  lhsBatch := []
  rhsBatch := []
  wf := dot_S2041x128_S128x128_S2041x128_1_0_0_1_n_n_wf

abbrev win0_0 : Pipeline.Window sig grid0 :=
  Pipeline.Window.ofSpec (Memref.whole main_arg0) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2041x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S2041 : Shape := ⟨1, ![2041]⟩
abbrev S2041x1 : Shape := ⟨2, ![2041, 1]⟩
abbrev S8 : Shape := ⟨1, ![8]⟩
abbrev S1x8 : Shape := ⟨2, ![1, 8]⟩
abbrev S2041x8 : Shape := ⟨2, ![2041, 8]⟩
abbrev S_ : Shape := ⟨0, ![]⟩
abbrev S2041x8x1 : Shape := ⟨3, ![2041, 8, 1]⟩
abbrev S32x2041x8x128 : Shape := ⟨4, ![32, 2041, 8, 128]⟩
abbrev S32x2041x128 : Shape := ⟨3, ![32, 2041, 128]⟩
abbrev S2041x128 : Shape := ⟨2, ![2041, 128]⟩
abbrev S1x2041x128 : Shape := ⟨3, ![1, 2041, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128x64, .f32⟩
  | .hbm, ⟨3, _⟩ => ⟨S64x128, .f32⟩
  | .hbm, ⟨4, _⟩ => ⟨S2041, .i32⟩
  | .hbm, ⟨5, _⟩ => ⟨S2041x1, .i32⟩
  | .hbm, ⟨6, _⟩ => ⟨S8, .i32⟩
  | .hbm, ⟨7, _⟩ => ⟨S1x8, .i32⟩
  | .hbm, ⟨8, _⟩ => ⟨S2041x8, .i32⟩
  | .hbm, ⟨9, _⟩ => ⟨S2041x8, .i32⟩
  | .hbm, ⟨10, _⟩ => ⟨S2041x8, .i32⟩
  | .hbm, ⟨11, _⟩ => ⟨S_, .i32⟩
  | .hbm, ⟨12, _⟩ => ⟨S2041x8, .i32⟩
  | .hbm, ⟨13, _⟩ => ⟨S2041x8, .i1⟩
  | .hbm, ⟨14, _⟩ => ⟨S_, .i32⟩
  | .hbm, ⟨15, _⟩ => ⟨S2041x8, .i32⟩
  | .hbm, ⟨16, _⟩ => ⟨S2041x8, .i32⟩
  | .hbm, ⟨17, _⟩ => ⟨S2041x8, .i32⟩
  | .hbm, ⟨18, _⟩ => ⟨S2041x8x1, .i32⟩
  | .hbm, ⟨19, _⟩ => ⟨S32x2041x8x128, .f32⟩
  | .hbm, ⟨20, _⟩ => ⟨S_, .f32⟩
  | .hbm, ⟨21, _⟩ => ⟨S32x2041x128, .f32⟩
  | .hbm, ⟨22, _⟩ => ⟨S_, .f32⟩
  | .hbm, ⟨23, _⟩ => ⟨S32x2041x128, .f32⟩
  | .hbm, ⟨24, _⟩ => ⟨S32x2041x128, .f32⟩
  | .hbm, ⟨25, _⟩ => ⟨S32x2041x128, .f32⟩
  | .hbm, ⟨26, _⟩ => ⟨S2041, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2041, .i32⟩
  | .hbm, ⟨34, _⟩ => ⟨S2041, .i32⟩
  | .hbm, ⟨35, _⟩ => ⟨S_, .i32⟩
  | .hbm, ⟨36, _⟩ => ⟨S2041, .i32⟩
  | .hbm, ⟨37, _⟩ => ⟨S2041, .i1⟩
  | .hbm, ⟨38, _⟩ => ⟨S_, .i32⟩
  | .hbm, ⟨39, _⟩ => ⟨S2041, .i32⟩
  | .hbm, ⟨40, _⟩ => ⟨S2041, .i1⟩
  | .hbm, ⟨41, _⟩ => ⟨S_, .i32⟩
  | .hbm, ⟨42, _⟩ => ⟨S_, .i1⟩
  | .hbm, ⟨43, _⟩ => ⟨S2041, .i1⟩
  | .hbm, ⟨44, _⟩ => ⟨S2041, .i1⟩
  | .hbm, ⟨45, _⟩ => ⟨S2041, .i1⟩
  | .hbm, ⟨46, _⟩ => ⟨S2041, .i32⟩
  | .hbm, ⟨47, _⟩ => ⟨S2041, .i32⟩
  | .hbm, ⟨48, _⟩ => ⟨S2041, .i32⟩
  | .hbm, ⟨49, _⟩ => ⟨S64x128, .f32⟩
  | .hbm, ⟨50, _⟩ => ⟨S_, .i32⟩
  | .hbm, ⟨51, _⟩ => ⟨S2041, .i32⟩
  | .hbm, ⟨52, _⟩ => ⟨S2041, .i1⟩
  | .hbm, ⟨53, _⟩ => ⟨S_, .i32⟩
  | .hbm, ⟨54, _⟩ => ⟨S2041, .i32⟩
  | .hbm, ⟨55, _⟩ => ⟨S2041, .i32⟩
  | .hbm, ⟨56, _⟩ => ⟨S2041, .i32⟩
  | .hbm, ⟨57, _⟩ => ⟨S2041x1, .i32⟩
  | .hbm, ⟨58, _⟩ => ⟨S2041x128, .f32⟩
  | .hbm, ⟨59, _⟩ => ⟨S_, .i32⟩
  | .hbm, ⟨60, _⟩ => ⟨S2041, .i32⟩
  | .hbm, ⟨61, _⟩ => ⟨S2041, .i1⟩
  | .hbm, ⟨62, _⟩ => ⟨S_, .i32⟩
  | .hbm, ⟨63, _⟩ => ⟨S2041, .i32⟩
  | .hbm, ⟨64, _⟩ => ⟨S2041, .i32⟩
  | .hbm, ⟨65, _⟩ => ⟨S2041, .i32⟩
  | .hbm, ⟨66, _⟩ => ⟨S2041x1, .i32⟩
  | .hbm, ⟨67, _⟩ => ⟨S2041x128, .f32⟩
  | .hbm, ⟨68, _⟩ => ⟨S2041x128, .f32⟩
  | .hbm, ⟨69, _⟩ => ⟨S1x2041x128, .f32⟩
  | .hbm, ⟨70, _⟩ => ⟨S32x2041x128, .f32⟩
  | .hbm, ⟨71, _⟩ => ⟨S32x2041x128, .f32⟩
  | .hbm, ⟨72, _⟩ => ⟨S32x2041x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩

abbrev nD : Nat := 1
abbrev τ : Topo := Topo.v7x

variable {F : FTy → Type} [FloatOps F]

class Facts₀ : Prop where
  bcast_S2041_S2041x1_0 : S2041.BroadcastsInDim S2041x1 (![0] : Fin 1 → Fin S2041x1.rank)
  bcast_S8_S1x8_1 : S8.BroadcastsInDim S1x8 (![1] : Fin 1 → Fin S1x8.rank)
  bcast_S2041x1_S2041x8_0_1 : S2041x1.BroadcastsInDim S2041x8 (![0, 1] : Fin 2 → Fin S2041x8.rank)
  bcast_S1x8_S2041x8_0_1 : S1x8.BroadcastsInDim S2041x8 (![0, 1] : Fin 2 → Fin S2041x8.rank)
  bcast_S_S2041x8 : S_.BroadcastsInDim S2041x8 (![] : Fin 0 → Fin S2041x8.rank)
  bcast_S2041x8_S2041x8x1_0_1 : S2041x8.BroadcastsInDim S2041x8x1 (![0, 1] : Fin 2 → Fin S2041x8x1.rank)
  reducesTo_S32x2041x8x128_S32x2041x128_d2 : S32x2041x8x128.ReducesTo [2] S32x2041x128
  h_S_ : 0 < S_.numel
  bcast_S_S32x2041x128 : S_.BroadcastsInDim S32x2041x128 (![] : Fin 0 → Fin S32x2041x128.rank)
  bcast_S_S2041 : S_.BroadcastsInDim S2041 (![] : Fin 0 → Fin S2041.rank)
  transposes_S128x64_S64x128_1_0 : S128x64.Transposes [1, 0] S64x128
  bcast_S2041x128_S1x2041x128_1_2 : S2041x128.BroadcastsInDim S1x2041x128 (![1, 2] : Fin 2 → Fin S1x2041x128.rank)
  bcast_S1x2041x128_S32x2041x128_0_1_2 : S1x2041x128.BroadcastsInDim S32x2041x128 (![0, 1, 2] : Fin 3 → Fin S32x2041x128.rank)
  reducesTo_S32x2041x128_S_d0_1_2 : S32x2041x128.ReducesTo [0, 1, 2] S_
  gather_S32x2048x128_S2041x8x1_S32x2041x8x128_03_1_n_n_1_2_321128_wf : GatherDims.WF S32x2048x128 S2041x8x1 S32x2041x8x128 [0, 3] [1] [] [1] [] 2 ![32, 1, 128]
  dot_S32x2041x128_S128x128_S32x2041x128_2_1_01_0_n_n_wf : DotDims.WF S32x2041x128 S128x128 S32x2041x128 [2] [1] [0, 1] [0] [] []
  gather_S64x128_S2041x1_S2041x128_1_0_n_n_0_1_1128_wf : GatherDims.WF S64x128 S2041x1 S2041x128 [1] [0] [] [0] [] 1 ![1, 128]

variable [Facts₀]

def gather_S32x2048x128_S2041x8x1_S32x2041x8x128_03_1_n_n_1_2_321128 : GatherDims S32x2048x128 S2041x8x1 S32x2041x8x128 where
  offsetDims := [0, 3]
  collapsedSliceDims := [1]
  operandBatchingDims := []
  startIndicesBatchingDims := []
  startIndexMap := [1]
  indexVectorDim := 2
  sliceSizes := ![32, 1, 128]
  wf := gather_S32x2048x128_S2041x8x1_S32x2041x8x128_03_1_n_n_1_2_321128_wf
def dot_S32x2041x128_S128x128_S32x2041x128_2_1_01_0_n_n : DotDims S32x2041x128 S128x128 S32x2041x128 where
  lhsContracting := [2]
  rhsContracting := [1]
  lhsNonContracting := [0, 1]
  rhsNonContracting := [0]
  lhsBatch := []
  rhsBatch := []
  wf := dot_S32x2041x128_S128x128_S32x2041x128_2_1_01_0_n_n_wf
def gather_S64x128_S2041x1_S2041x128_1_0_n_n_0_1_1128 : GatherDims S64x128 S2041x1 S2041x128 where
  offsetDims := [1]
  collapsedSliceDims := [0]
  operandBatchingDims := []
  startIndicesBatchingDims := []
  startIndexMap := [0]
  indexVectorDim := 1
  sliceSizes := ![1, 128]
  wf := gather_S64x128_S2041x1_S2041x128_1_0_n_n_0_1_1128_wf

class Facts : Prop extends Facts₀ where

variable [Facts]
-- ==== Proof.KernelBody.lean ====
/-
  What the kernel body leaves in its output block.  The body walks the four batch rows of its input
  block one after the other; on trip `k` it reads row `k` (a [1, 2048, 128] slab of the block), the whole
  scaled map and the whole target, and stores ONE number — the row's sum of squared deviations — at
  position `k` of the [4, 1, 1] output block.  So the block read back at position `y` is that number
  computed from row `y 0` of the input block, whatever was there before.
-/
import proofs.«102863_j2740189135096_2_alg».proof.Proof.Gen.KernelIdeal.Frame
import Idealize.ShloMosaic.Lib.Pipeline.Value
import Idealize.ShloMosaic.Lib.ValueIdx
import Idealize.ShloMosaic.Lib.WholeRead

noncomputable section

namespace Cert.KernelIdeal.BodyValue

open Idealize.ShloMosaic Idealize.ShloMosaic.TcCoe Idealize.ShloMosaic.ValueIdx Idealize.SL.Sem
open Cert.KernelIdeal Cert.KernelIdeal.Gen

variable {F : FTy → Type} [FloatOps F]

/-- Batch row `r` of a block of four rows, as a one-row slab. -/
def rowOf (x0 : Vec F S4x2048x128 .f32) (r : Fin 4) : Vec F S1x2048x128 .f32 :=
  fun z => x0 (ix3 r (z 1) (z 2))

/-- The loop makes four trips. -/
theorem trips_eq : k0_t1_loop.trips = 4 := by decide

/-- Trip `k` stores one piece: at position `k` of the output block, the body's arithmetic of the map,
    of the slab the trip loads from the input block, and of the target. -/
theorem trip_piece (𝒱 : Variants) (c : Dev nD) (bd : Option 𝒱.V) (i : grid0.Coords) (arg1 : Memref sig .tc .vmem S4x2048x128 .f32) (harg1 : arg1.IsWhole) (arg2 : Memref sig .tc .vmem S128x128 .f32) (harg2 : arg2.IsWhole) (arg3 : Memref sig .tc .vmem S2041x128 .f32) (harg3 : arg3.IsWhole) (arg4 : Memref sig .tc .vmem S4x1x1 .f32) (harg4 : arg4.IsWhole)
    (v0 : Vec F S128x128 .f32) (X_arg1 : BufTy.Contents (Elt F) arg1.view.ty) (X_arg3 : BufTy.Contents (Elt F) arg3.view.ty) (k : Fin k0_t1_loop.trips) :
    tripL_k0_t1 (F := F) 𝒱 c bd i arg1 harg1 arg2 harg2 arg3 harg3 arg4 harg4 v0 X_arg1 X_arg3 k
      = [(⟨Rect.unit (k0_off2 k) S1x1x1.size (k0_off2_inb k),
          k0_pay1 v0 (View.readAt (Elt F) arg1.view (Rect.unit (s := S4x2048x128) (k0_off1 k) S1x2048x128.size (k0_off1_inb k)).toLoadRect X_arg1)
            (View.readAt (Elt F) arg3.view (Rect.unit (s := S2041x128) ![0, 0] S2041x128.size Facts₀.inb_S2041x128_S2041x128_0_0).toLoadRect X_arg3)⟩ : View.Piece (Elt F) S4x1x1 .f32)] := by
  unfold tripL_k0_t1 trip_k0_t1
  rfl

/-- A property of every trip's piece holds of every piece the trips before `n` left. -/
theorem pieces_forall (P : View.Piece (Elt F) S4x1x1 .f32 → Prop) (𝒱 : Variants) (c : Dev nD) (bd : Option 𝒱.V) (i : grid0.Coords) (arg1 : Memref sig .tc .vmem S4x2048x128 .f32) (harg1 : arg1.IsWhole) (arg2 : Memref sig .tc .vmem S128x128 .f32) (harg2 : arg2.IsWhole) (arg3 : Memref sig .tc .vmem S2041x128 .f32) (harg3 : arg3.IsWhole) (arg4 : Memref sig .tc .vmem S4x1x1 .f32) (harg4 : arg4.IsWhole)
    (v0 : Vec F S128x128 .f32) (X_arg1 : BufTy.Contents (Elt F) arg1.view.ty) (X_arg3 : BufTy.Contents (Elt F) arg3.view.ty)
    (hP : ∀ k : Fin k0_t1_loop.trips, ∀ p ∈ tripL_k0_t1 (F := F) 𝒱 c bd i arg1 harg1 arg2 harg2 arg3 harg3 arg4 harg4 v0 X_arg1 X_arg3 k, P p) :
    ∀ n : ℕ, ∀ p ∈ pb_k0_t1 (F := F) 𝒱 c bd i arg1 harg1 arg2 harg2 arg3 harg3 arg4 harg4 v0 X_arg1 X_arg3 n, P p
  | 0 => fun p hp => by rw [pb_k0_t1.eq_1] at hp; exact absurd hp List.not_mem_nil
  | n + 1 => fun p hp => by
    by_cases h : n < k0_t1_loop.trips
    · rw [pb_k0_t1_succ 𝒱 c bd i arg1 harg1 arg2 harg2 arg3 harg3 arg4 harg4 v0 X_arg1 X_arg3 ⟨n, h⟩] at hp
      rcases List.mem_append.mp hp with hp | hp
      · exact hP ⟨n, h⟩ p hp
      · exact pieces_forall P 𝒱 c bd i arg1 harg1 arg2 harg2 arg3 harg3 arg4 harg4 v0 X_arg1 X_arg3 hP n p hp
    · rw [pb_k0_t1.eq_2] at hp
      unfold pb_k0_t1Step at hp
      rw [dif_neg h] at hp
      exact pieces_forall P 𝒱 c bd i arg1 harg1 arg2 harg2 arg3 harg3 arg4 harg4 v0 X_arg1 X_arg3 hP n p hp

/-- A load of the whole map from a buffer held at contents reading `x1` reads `x1`. -/
theorem load_map (arg2 : Memref sig .tc .vmem S128x128 .f32) (harg2 : arg2.IsWhole) (x1 : Vec F S128x128 .f32) :
    View.readAt (Elt F) arg2.view (Rect.unit (s := S128x128) ![0, 0] S128x128.size Facts₀.inb_S128x128_S128x128_0_0).toLoadRect (harg2.unread x1) = x1 := by
  rw [View.readAt_eq_ld, harg2.read_unread]
  exact View.ld_unit_zero (funext fun a => by match a with | ⟨0, _⟩ => rfl | ⟨1, _⟩ => rfl) _ x1

/-- The same for the target. -/
theorem load_target (arg3 : Memref sig .tc .vmem S2041x128 .f32) (harg3 : arg3.IsWhole) (x2 : Vec F S2041x128 .f32) :
    View.readAt (Elt F) arg3.view (Rect.unit (s := S2041x128) ![0, 0] S2041x128.size Facts₀.inb_S2041x128_S2041x128_0_0).toLoadRect (harg3.unread x2) = x2 := by
  rw [View.readAt_eq_ld, harg3.read_unread]
  exact View.ld_unit_zero (funext fun a => by match a with | ⟨0, _⟩ => rfl | ⟨1, _⟩ => rfl) _ x2

/-- Trip `k`'s load of the input block reads batch row `k` of it. -/
theorem load_row (arg1 : Memref sig .tc .vmem S4x2048x128 .f32) (harg1 : arg1.IsWhole) (x0 : Vec F S4x2048x128 .f32)
    (k : Fin k0_t1_loop.trips) (r : Fin 4) (hr : r.val = k.val) :
    View.readAt (Elt F) arg1.view (Rect.unit (s := S4x2048x128) (k0_off1 k) S1x2048x128.size (k0_off1_inb k)).toLoadRect (harg1.unread x0) = rowOf x0 r := by
  funext z
  rw [harg1.readAt_unread]
  unfold rowOf
  refine congrArg x0 (funext fun a => Fin.ext ?_)
  have h1 := k0_off1_eq k
  have e0 : k0_off1 k 0 = k.val := congrFun h1 0
  have e1 : k0_off1 k 1 = 0 := congrFun h1 1
  have e2 : k0_off1 k 2 = 0 := congrFun h1 2
  match a with
  | ⟨0, _⟩ =>
    show k0_off1 k 0 + 1 * (z 0).val = r.val
    have hz : (z 0).val < 1 := (z 0).isLt
    omega
  | ⟨1, _⟩ =>
    show k0_off1 k 1 + 1 * (z 1).val = (z 1).val
    omega
  | ⟨2, _⟩ =>
    show k0_off1 k 2 + 1 * (z 2).val = (z 2).val
    omega

/-- THE OUTPUT BLOCK: read back at position `y`, it is the body's arithmetic of the map, of batch row `y 0` of
    the input block, and of the target. -/
theorem out_apply (c : Dev nD) (i : grid0.Coords) (arg1 : Memref sig .tc .vmem S4x2048x128 .f32) (harg1 : arg1.IsWhole) (arg2 : Memref sig .tc .vmem S128x128 .f32) (harg2 : arg2.IsWhole) (arg3 : Memref sig .tc .vmem S2041x128 .f32) (harg3 : arg3.IsWhole) (arg4 : Memref sig .tc .vmem S4x1x1 .f32) (harg4 : arg4.IsWhole)
    (x0 : Vec F S4x2048x128 .f32) (x1 : Vec F S128x128 .f32) (x2 : Vec F S2041x128 .f32) (y : S4x1x1.Idx) :
    out0_A_3 (F := F) c i arg1 harg1 arg2 harg2 arg3 harg3 arg4 harg4 x0 x1 x2 y = k0_pay1 x1 (rowOf x0 (y 0)) x2 (ix3 0 0 0) := by
  unfold out0_A_3
  rw [View.read_writes_eq_canon _ _ _ (cover0_A_3 c i arg1 harg1 arg2 harg2 arg3 harg3 arg4 harg4 x0 x1 x2)]
  refine View.canon_apply_of_pieces (fun y : S4x1x1.Idx => k0_pay1 x1 (rowOf x0 (y 0)) x2 (ix3 0 0 0)) _ ?_ y
    (cover0_A_3 c i arg1 harg1 arg2 harg2 arg3 harg3 arg4 harg4 x0 x1 x2 y)
  have hL : (kernelRun0_A (F := F) c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S128x128) ![0, 0] S128x128.size Facts₀.inb_S128x128_S128x128_0_0).toLoadRect (harg2.unread x1))
          (harg1.unread x0) (harg3.unread x2) k0_t1_loop.trips := by
    unfold kernelRun0_A
    rfl
  rw [hL]
  refine pieces_forall _ Variants.none c none i arg1 harg1 arg2 harg2 arg3 harg3 arg4 harg4 _ _ _ (fun k p hp => ?_) _
  rw [trip_piece] at hp
  obtain rfl := List.mem_singleton.mp hp
  intro x
  have hk : k.val < 4 := trips_eq ▸ k.isLt
  show k0_pay1 _ _ _ x = k0_pay1 x1 (rowOf x0 ((Rect.unit (s := S4x1x1) (k0_off2 k) S1x1x1.size (k0_off2_inb k)).emb x 0)) x2 (ix3 0 0 0)
  rw [load_map, load_target, load_row arg1 harg1 x0 k ((Rect.unit (s := S4x1x1) (k0_off2 k) S1x1x1.size (k0_off2_inb k)).emb x 0) (by
    show k0_off2 k 0 + 1 * (x 0).val = k.val
    have hx : (x 0).val < 1 := (x 0).isLt
    have e0 : k0_off2 k 0 = k.val := congrFun (k0_off2_eq k) 0
    omega)]
  refine congrArg _ (funext fun a => Fin.ext ?_)
  match a with
  | ⟨0, _⟩ => have hx : (x 0).val < 1 := (x 0).isLt; show (x 0).val = 0; omega
  | ⟨1, _⟩ => have hx : (x 1).val < 1 := (x 1).isLt; show (x 1).val = 0; omega
  | ⟨2, _⟩ => have hx : (x 2).val < 1 := (x 2).isLt; show (x 2).val = 0; omega

end Cert.KernelIdeal.BodyValue

end
-- ==== Proof.NkChain.lean ====
/-
  The position-indexed target `Nk`, which both programs compute by the same operations from the
  coefficient table [128, 64] and the basis table [64, 128]: row `w` of the result is the entrywise
  product of row `w mod 64` of the transposed coefficients and row `w mod 64` of the basis.  The chain —
  a floored remainder of the window numbers, a wrap of negative row numbers, two row gathers and a
  product — is named once here and never opened: each program's run is shown to end at this very term.
-/
import Idealize.ShloMosaic.PureOps

noncomputable section

namespace Cert.WindowLoss

open Idealize.ShloMosaic

abbrev T_ : Shape := ⟨0, ![]⟩
abbrev T2041 : Shape := ⟨1, ![2041]⟩
abbrev T2041x1 : Shape := ⟨2, ![2041, 1]⟩
abbrev T128x64 : Shape := ⟨2, ![128, 64]⟩
abbrev T64x128 : Shape := ⟨2, ![64, 128]⟩
abbrev T2041x128 : Shape := ⟨2, ![2041, 128]⟩

theorem bcast_T_T2041 : T_.BroadcastsInDim T2041 (![] : Fin 0 → Fin T2041.rank) := by decide
theorem bcast_T2041_T2041x1 : T2041.BroadcastsInDim T2041x1 (![0] : Fin 1 → Fin T2041x1.rank) := by decide
theorem transposes_T128x64 : T128x64.Transposes [1, 0] T64x128 := by decide
theorem gatherRows_wf : GatherDims.WF T64x128 T2041x1 T2041x128 [1] [0] [] [0] [] 1 ![1, 128] := by decide

/-- Whole rows of a [64, 128] table taken at 2041 row numbers. -/
def gatherRows : GatherDims T64x128 T2041x1 T2041x128 where
  offsetDims := [1]
  collapsedSliceDims := [0]
  operandBatchingDims := []
  startIndicesBatchingDims := []
  startIndexMap := [0]
  indexVectorDim := 1
  sliceSizes := ![1, 128]
  wf := gatherRows_wf

/-- The divisor of the remainder: 64, or 1 where it would be 0. -/
def modDivisor : IVec T_ 32 :=
  select (cmpi .eq (id (constantI T_ 32 64#32)) (constantI T_ 32 0#32)) (constantI T_ 32 1#32) (id (constantI T_ 32 64#32))

/-- The truncated remainder of the window numbers 0 … 2040 by the divisor. -/
def truncRem : IVec T2041 32 :=
  Host.remsi (iotaInDim T2041 32 0) (broadcastInDim T2041 ![] bcast_T_T2041 modDivisor)

/-- The floored remainder: the truncated one moved by the divisor where the signs differ. -/
def kmod : IVec T2041 32 :=
  select
    (andi
      (cmpi .ne (cmpi .slt truncRem (broadcastInDim T2041 ![] bcast_T_T2041 (constantI T_ 32 0#32)))
        (broadcastInDim T2041 ![] bcast_T_T2041 (cmpi .slt modDivisor (constantI T_ 32 0#32))))
      (cmpi .ne truncRem (broadcastInDim T2041 ![] bcast_T_T2041 (constantI T_ 32 0#32))))
    (addi truncRem (broadcastInDim T2041 ![] bcast_T_T2041 modDivisor))
    truncRem

/-- The row numbers as the gather takes them: negative ones wrapped by 64, laid out as a column. -/
def rowIdx : IVec T2041x1 32 :=
  broadcastInDim T2041x1 ![0] bcast_T2041_T2041x1
    (select (cmpi .slt kmod (broadcastInDim T2041 ![] bcast_T_T2041 (constantI T_ 32 0#32)))
      (addi kmod (broadcastInDim T2041 ![] bcast_T_T2041 (constantI T_ 32 64#32))) kmod)

/-- The target: gathered rows of the transposed coefficients times gathered rows of the basis. -/
def nk {F : FTy → Type} [FloatOps F] (a2 : FVec F T128x64 .f32) (a3 : FVec F T64x128 .f32) : FVec F T2041x128 .f32 :=
  mulf (Host.gather gatherRows (transpose T64x128 [1, 0] a2 transposes_T128x64) rowIdx) (Host.gather gatherRows a3 rowIdx)

end Cert.WindowLoss

end
-- ==== Proof.KernelHost.lean ====
/-
  The host operations around the kernel, read back.  Before the region the program transposes the
  map and scales it by the literal 0.125, and builds the target by the shared chain of NkChain.lean;
  after it, it adds the 32 row sums from zero and divides by the literal count.
-/
import proofs.«102863_j2740189135096_2_alg».proof.Proof.Gen.KernelIdeal.Frame
import proofs.«102863_j2740189135096_2_alg».proof.Proof.NkChain
import Idealize.ShloMosaic.Lib.StableHlo.Run

noncomputable section

namespace Cert.KernelIdeal.HostValue

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ)

/-- The scaled transposed map as the region finds it. -/
theorem V_map (c : Dev nD) :
    (V m c main_v2 : S128x128.Idx → Elt F .f32)
      = mulf (transpose S128x128 [1, 0] (m ((c : Thread nD τ).loc main_arg1)) Facts₀.transposes_S128x128_S128x128_1_0)
          (broadcastInDim S128x128 ![] Facts₀.bcast_S_S128x128 (constant (F := F) S_ .f32 0x3E000000#32)) := by
  dsimp only [V, V0]
  simp only [hostOps0, hostOps0_1, hostOps0_2, List.flatten_cons, List.flatten_nil, List.append_nil, List.cons_append,
    List.nil_append]
  after_results

attribute [local irreducible] Host.gather Host.remsi in
set_option maxHeartbeats 4000000 in
/-- The target as the region finds it: the shared chain of the two tables. -/
theorem V_target (c : Dev nD) :
    (V m c main_v20 : S2041x128.Idx → Elt F .f32)
      = Cert.WindowLoss.nk (F := F) (m ((c : Thread nD τ).loc main_arg2)) (m ((c : Thread nD τ).loc main_arg3)) := by
  dsimp only [V, V0]
  simp only [hostOps0, hostOps0_1, hostOps0_2, List.flatten_cons, List.flatten_nil, List.append_nil, List.cons_append,
    List.nil_append]
  after_results_simp
  rfl

end Cert.KernelIdeal.HostValue

end
-- ==== Proof.Spec.lean ====
/-
  The mathematics both programs compute, stated once over curried functions of literal index types.

  A batch row X : [2048, 128] gives 2041 windows of 8 consecutive rows.  The reference averages a
  window (its sum divided by 8), maps it through M (x ↦ x · Mᵀ), subtracts the target row nk w and
  squares; the result is the sum of all squares over (batch, window, column) divided by their count.
  The kernel sums a window as a tree of pairwise sums, multiplies by the transposed map already scaled
  by 1/8, and adds the squares up lane first, then window, then batch row.

  On the extended reals addition and multiplication are commutative and associative, and dividing by
  the real 8 is multiplying by 1/8, so the two arrangements agree for every input — no finiteness is
  used (`kerLoss_eq_refLoss`).
-/
import Idealize.ShloMosaic.PureOps.Ideal
import Idealize.ShloMosaic.Lib.ValueIdx

noncomputable section

namespace Cert.WindowLoss

open Idealize.ShloMosaic

/-- The f32 literal 8.0. -/
abbrev c8 : EReal := Ideal.ofBits .f32 0x41000000#32
/-- The f32 literal 0.125. -/
abbrev c18 : EReal := Ideal.ofBits .f32 0x3E000000#32
/-- The f32 literal 8359936.0 = 32 · 2041 · 128. -/
abbrev cTotal : EReal := Ideal.ofBits .f32 0x4AFF2000#32

/-- Row `w + j` of a 2048-row array: row `j` of window `w`. -/
def wrow (w : Fin 2041) (j : Fin 8) : Fin 2048 := ⟨w.val + j.val, by omega⟩

/-! ## The reference's arrangement -/

/-- The deviation at window `w`, column `n` of one batch row: the window's mean mapped through `M`, minus the target. -/
def refDev (X : Fin 2048 → Fin 128 → EReal) (M : Fin 128 → Fin 128 → EReal) (nk : Fin 2041 → Fin 128 → EReal)
    (w : Fin 2041) (n : Fin 128) : EReal :=
  (∑ k : Fin 128, Ideal.div (0 + ∑ j : Fin 8, X (wrow w j) k) c8 * M n k) - nk w n

/-- The mean squared deviation over every batch row, window and column. -/
def refLoss (x : Fin 32 → Fin 2048 → Fin 128 → EReal) (M : Fin 128 → Fin 128 → EReal) (nk : Fin 2041 → Fin 128 → EReal) : EReal :=
  Ideal.div (0 + ∑ b : Fin 32, ∑ w : Fin 2041, ∑ n : Fin 128, refDev (x b) M nk w n * refDev (x b) M nk w n) cTotal

/-! ## The kernel's arrangement -/

/-- A window's sum as the tree of pairwise sums: (2 + 2) + (2 + 2). -/
def kerWin (X : Fin 2048 → Fin 128 → EReal) (w : Fin 2041) (k : Fin 128) : EReal :=
  ((X (wrow w 0) k + X (wrow w 1) k) + (X (wrow w 2) k + X (wrow w 3) k))
    + ((X (wrow w 4) k + X (wrow w 5) k) + (X (wrow w 6) k + X (wrow w 7) k))

/-- The deviation with the window SUM against the pre-scaled transposed map `Mt k n`. -/
def kerDev (X : Fin 2048 → Fin 128 → EReal) (Mt : Fin 128 → Fin 128 → EReal) (nk : Fin 2041 → Fin 128 → EReal)
    (w : Fin 2041) (n : Fin 128) : EReal :=
  (∑ k : Fin 128, kerWin X w k * Mt k n) - nk w n

/-- One batch row's sum of squares: over the columns first, then over the windows. -/
def kerRowLoss (X : Fin 2048 → Fin 128 → EReal) (Mt : Fin 128 → Fin 128 → EReal) (nk : Fin 2041 → Fin 128 → EReal) : EReal :=
  ∑ w : Fin 2041, ∑ n : Fin 128, kerDev X Mt nk w n * kerDev X Mt nk w n

/-- The rows' sums added from zero and divided by the count. -/
def kerLoss (x : Fin 32 → Fin 2048 → Fin 128 → EReal) (Mt : Fin 128 → Fin 128 → EReal) (nk : Fin 2041 → Fin 128 → EReal) : EReal :=
  Ideal.div (0 + ∑ b : Fin 32, kerRowLoss (x b) Mt nk) cTotal

end Cert.WindowLoss

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«102863_j2740189135096_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.KernelWindow.lean ====
/-
  The sum of eight consecutive rows of a 2048-row array, built in three rounds: each round adds the array to a copy of
  itself shifted down by o rows (o = 1, then 2, then 4), so the row count drops 2048 → 2047 → 2045 → 2041 and entry
  (p, q) of the last array is the tree of pairwise sums
    ((x p + x (p+1)) + (x (p+2) + x (p+3))) + ((x (p+4) + x (p+5)) + (x (p+6) + x (p+7))).
-/
import proofs.«102863_j2740189135096_2_alg».proof.Proof.Spec
import Idealize.ShloMosaic.Lib.ValueLayout

noncomputable section

namespace Cert.KernelIdeal.PayValue

open Idealize.ShloMosaic Idealize.ShloMosaic.ValueIdx

/-- One round: the first m rows of an array plus its m rows from row o on, at (p, q), is row p plus row o + p. -/
theorem shiftAdd_apply {n m c : Nat} (o : Nat) (X : FVec Ideal (⟨2, ![n, c]⟩ : Shape) .f32)
    (h0 : (⟨2, ![n, c]⟩ : Shape).Slices ![0, 0] ⟨2, ![m, c]⟩)
    (h1 : (⟨2, ![n, c]⟩ : Shape).Slices ![o, 0] ⟨2, ![m, c]⟩)
    (p : Fin m) (q : Fin c) (k0 k1 : Fin n) (hk0 : k0.val = p.val) (hk1 : k1.val = o + p.val) :
    addf (extractStridedSlice (⟨2, ![m, c]⟩ : Shape) ![0, 0] X h0)
        (extractStridedSlice (⟨2, ![m, c]⟩ : Shape) ![o, 0] X h1) (ix2 p q)
      = X (ix2 k0 q) + X (ix2 k1 q) :=
  (addf_apply _ _ _).trans
    (congrArg₂ (· + ·) (slice2_axis0_apply 0 X h0 p q k0 (by rw [hk0, Nat.zero_add]))
      (slice2_axis0_apply o X h1 p q k1 hk1))

/-- Three rounds with shifts 1, 2, 4 on a 2048-row array: entry (p, q) is the window's tree of pairwise sums. -/
theorem window_apply (X : FVec Ideal (⟨2, ![2048, 128]⟩ : Shape) .f32)
    (h10 : (⟨2, ![2048, 128]⟩ : Shape).Slices ![0, 0] ⟨2, ![2047, 128]⟩)
    (h11 : (⟨2, ![2048, 128]⟩ : Shape).Slices ![1, 0] ⟨2, ![2047, 128]⟩)
    (h20 : (⟨2, ![2047, 128]⟩ : Shape).Slices ![0, 0] ⟨2, ![2045, 128]⟩)
    (h22 : (⟨2, ![2047, 128]⟩ : Shape).Slices ![2, 0] ⟨2, ![2045, 128]⟩)
    (h40 : (⟨2, ![2045, 128]⟩ : Shape).Slices ![0, 0] ⟨2, ![2041, 128]⟩)
    (h44 : (⟨2, ![2045, 128]⟩ : Shape).Slices ![4, 0] ⟨2, ![2041, 128]⟩)
    (p : Fin 2041) (q : Fin 128) :
    addf
        (extractStridedSlice (⟨2, ![2041, 128]⟩ : Shape) ![0, 0]
          (addf
            (extractStridedSlice (⟨2, ![2045, 128]⟩ : Shape) ![0, 0]
              (addf (extractStridedSlice (⟨2, ![2047, 128]⟩ : Shape) ![0, 0] X h10)
                (extractStridedSlice (⟨2, ![2047, 128]⟩ : Shape) ![1, 0] X h11)) h20)
            (extractStridedSlice (⟨2, ![2045, 128]⟩ : Shape) ![2, 0]
              (addf (extractStridedSlice (⟨2, ![2047, 128]⟩ : Shape) ![0, 0] X h10)
                (extractStridedSlice (⟨2, ![2047, 128]⟩ : Shape) ![1, 0] X h11)) h22)) h40)
        (extractStridedSlice (⟨2, ![2041, 128]⟩ : Shape) ![4, 0]
          (addf
            (extractStridedSlice (⟨2, ![2045, 128]⟩ : Shape) ![0, 0]
              (addf (extractStridedSlice (⟨2, ![2047, 128]⟩ : Shape) ![0, 0] X h10)
                (extractStridedSlice (⟨2, ![2047, 128]⟩ : Shape) ![1, 0] X h11)) h20)
            (extractStridedSlice (⟨2, ![2045, 128]⟩ : Shape) ![2, 0]
              (addf (extractStridedSlice (⟨2, ![2047, 128]⟩ : Shape) ![0, 0] X h10)
                (extractStridedSlice (⟨2, ![2047, 128]⟩ : Shape) ![1, 0] X h11)) h22)) h44)
        (ix2 p q)
      = Cert.WindowLoss.kerWin (fun r k => X (ix2 r k)) p q := by
  have hp := p.isLt
  -- the last round: rows p and 4 + p of the 2045-row array
  refine (shiftAdd_apply 4 _ h40 h44 p q (⟨p.val, by omega⟩ : Fin 2045) (⟨4 + p.val, by omega⟩ : Fin 2045) rfl rfl).trans ?_
  -- the middle round at each of them: rows p, 2 + p, 4 + p, 2 + (4 + p) of the 2047-row array
  refine (congrArg₂ (· + ·)
    (shiftAdd_apply 2 _ h20 h22 _ q (⟨p.val, by omega⟩ : Fin 2047) (⟨2 + p.val, by omega⟩ : Fin 2047) rfl rfl)
    (shiftAdd_apply 2 _ h20 h22 _ q (⟨4 + p.val, by omega⟩ : Fin 2047) (⟨2 + (4 + p.val), by omega⟩ : Fin 2047) rfl rfl)).trans ?_
  -- the first round at each of the four: the eight rows of the window
  open Cert.WindowLoss in
  exact congrArg₂ (· + ·)
    (congrArg₂ (· + ·)
      (shiftAdd_apply 1 X h10 h11 _ q (wrow p 0) (wrow p 1) (by show p.val + 0 = p.val; rfl) (by show p.val + 1 = 1 + p.val; omega))
      (shiftAdd_apply 1 X h10 h11 _ q (wrow p 2) (wrow p 3) (by show p.val + 2 = 2 + p.val; omega) (by show p.val + 3 = 1 + (2 + p.val); omega)))
    (congrArg₂ (· + ·)
      (shiftAdd_apply 1 X h10 h11 _ q (wrow p 4) (wrow p 5) (by show p.val + 4 = 4 + p.val; omega) (by show p.val + 5 = 1 + (4 + p.val); omega))
      (shiftAdd_apply 1 X h10 h11 _ q (wrow p 6) (wrow p 7) (by show p.val + 6 = 2 + (4 + p.val); omega) (by show p.val + 7 = 1 + (2 + (4 + p.val)); omega)))

end Cert.KernelIdeal.PayValue

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KernelReduce.lean ====
/-
  Sums of a matrix over one axis, and the casts around them, read at an index.

  A matrix [a, b] summed over its columns is, at row w, Σ_n A(w, n); the vector of row sums recast as a one-column
  matrix [a, 1] and summed over its rows is, at its one entry, Σ_w of the row sums; putting unit axes in front of that
  one-entry array changes nothing. So the whole chain, read at any index of [1, 1, 1], is the double sum Σ_w Σ_n A(w, n).
-/
import Idealize.ShloMosaic.PureOps.Ideal.Laws
import Idealize.ShloMosaic.Lib.ValueLayout
import proofs.«102863_j2740189135096_2_alg».proof.Proof.LibColumn

noncomputable section

open scoped BigOperators

namespace Cert.KernelIdeal.PayValue

open Idealize.ShloMosaic Idealize.ShloMosaic.ValueIdx

/-- The sum over the columns of an [a, b] matrix, at row w. -/
theorem laneSum_apply {a b : Nat} (A : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (w : Fin a) :
    multiReduction .add [1] (⟨1, ![a]⟩ : Shape) A 0x00000000#32 h hφ hacc (ix1 w) = ∑ n : Fin b, A (ix2 w n) :=
  (Ideal.multiReduction_add_single A _ h hφ hacc (ix1 w)).trans
    (Finset.sum_congr rfl fun n _ => congrArg A (funext fun c => Fin.ext (by
      match c with
      | ⟨0, _⟩ => rfl
      | ⟨1, _⟩ => rfl)))

/-- The sum over the rows of an [a, c] matrix, at column u. -/
theorem rowSum_apply {a c : Nat} (A : FVec Ideal (⟨2, ![a, c]⟩ : Shape) .f32)
    (h : (⟨2, ![a, c]⟩ : Shape).Reduces [0] ⟨1, ![c]⟩) (hφ : FKind.Formats .f32)
    (hacc : (0x00000000#32 : BitVec 32) = FKind.add.neutral .f32 hφ) (u : Fin c) :
    multiReduction .add [0] (⟨1, ![c]⟩ : Shape) A 0x00000000#32 h hφ hacc (ix1 u) = ∑ w : Fin a, A (ix2 w u) :=
  (Ideal.multiReduction_add_single A _ h hφ hacc (ix1 u)).trans
    (Finset.sum_congr rfl fun w _ => congrArg A (funext fun d => Fin.ext (by
      match d with
      | ⟨0, _⟩ => rfl
      | ⟨1, _⟩ => rfl)))

/-- Column sums, then the sum of the row totals through a one-column matrix, then two unit axes in front: at every
index of the one-entry result, the double sum over the matrix. -/
theorem total_apply {a b : Nat} (A : FVec Ideal (⟨2, ![a, b]⟩ : Shape) .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (hu1 : (⟨1, ![1]⟩ : Shape).ShapeCasts ⟨2, ![1, 1]⟩) (hu2 : (⟨2, ![1, 1]⟩ : Shape).ShapeCasts ⟨3, ![1, 1, 1]⟩)
    (i : (⟨3, ![1, 1, 1]⟩ : Shape).Idx) :
    shapeCast (⟨3, ![1, 1, 1]⟩ : Shape)
        (shapeCast (⟨2, ![1, 1]⟩ : Shape)
          (multiReduction .add [0] (⟨1, ![1]⟩ : Shape)
            (shapeCast (⟨2, ![a, 1]⟩ : Shape)
              (multiReduction .add [1] (⟨1, ![a]⟩ : Shape) A 0x00000000#32 h1 hφ1 hacc1) hc)
            0x00000000#32 h0 hφ0 hacc0) hu1) hu2 i
      = ∑ w : Fin a, ∑ n : Fin b, A (ix2 w n) := by
  obtain ⟨x, y, z, rfl⟩ : ∃ (x y z : Fin 1), i = ix3 x y z := ⟨i 0, i 1, i 2, eq_ix3 i⟩
  refine (shapeCast_ab_1ab_apply _ hu2 x y z).trans ?_
  refine (shapeCast_a_1a_apply _ hu1 y z).trans ?_
  refine (rowSum_apply _ h0 hφ0 hacc0 z).trans ?_
  refine Finset.sum_congr rfl fun w _ => ?_
  refine (shapeCast_a_a1_apply _ hc w z).trans ?_
  exact laneSum_apply A h1 hφ1 hacc1 w

end Cert.KernelIdeal.PayValue

end
-- ==== Proof.KernelPayload.lean ====
/-
  The value one batch row stores: the kernel body's arithmetic, read at the one index of its result.

  Reading from the outside in: the casts and the two sums give Σ_w Σ_n of the squared entries (KernelReduce); a squared
  entry at (w, n) is the product of the deviation with itself; the deviation is the matrix product minus the target;
  the product into the zero accumulator is Σ_k window(w, k) · map(k, n) (LibPlainDot); narrowing to sixteen bits and the
  casts between equal shapes change nothing on the extended reals; the left factor is the window sum (KernelWindow) of
  the batch row with its leading unit axis dropped.
-/
import proofs.«102863_j2740189135096_2_alg».proof.Proof.Spec
import proofs.«102863_j2740189135096_2_alg».proof.Proof.Gen.KernelIdeal.Skeleton
import proofs.«102863_j2740189135096_2_alg».proof.Proof.LibPlainDot
import proofs.«102863_j2740189135096_2_alg».proof.Proof.KernelWindow
import proofs.«102863_j2740189135096_2_alg».proof.Proof.KernelReduce

noncomputable section

open scoped BigOperators

namespace Cert.KernelIdeal.PayValue

open Idealize.ShloMosaic Idealize.ShloMosaic.ValueIdx
open Cert.KernelIdeal Cert.KernelIdeal.Gen

/-- The deviation at window w, column n, as the operations before the squaring compute it. -/
theorem dev_apply (v0 : Vec Ideal S128x128 .f32) (v5 : Vec Ideal S1x2048x128 .f32) (v18 : Vec Ideal S2041x128 .f32)
    (hc0 : S128x128.ShapeCasts S128x128) (hb : FTy.bits .bf16 < FTy.bits .f32)
    (hc5 : S1x2048x128.ShapeCasts S2048x128)
    (h10 : S2048x128.Slices ![0, 0] S2047x128) (h11 : S2048x128.Slices ![1, 0] S2047x128)
    (h20 : S2047x128.Slices ![0, 0] S2045x128) (h22 : S2047x128.Slices ![2, 0] S2045x128)
    (h40 : S2045x128.Slices ![0, 0] S2041x128) (h44 : S2045x128.Slices ![4, 0] S2041x128)
    (hc18 : S2041x128.ShapeCasts S2041x128) (w : Fin 2041) (n : Fin 128) :
    subf
        (matmul dot_S2041x128_S128x128_S2041x128_1_0_0_1_n_n none
          (truncf .bf16
            (addf
              (extractStridedSlice S2041x128 ![0, 0]
                (addf
                  (extractStridedSlice S2045x128 ![0, 0]
                    (addf (extractStridedSlice S2047x128 ![0, 0] (shapeCast S2048x128 v5 hc5) h10)
                      (extractStridedSlice S2047x128 ![1, 0] (shapeCast S2048x128 v5 hc5) h11)) h20)
                  (extractStridedSlice S2045x128 ![2, 0]
                    (addf (extractStridedSlice S2047x128 ![0, 0] (shapeCast S2048x128 v5 hc5) h10)
                      (extractStridedSlice S2047x128 ![1, 0] (shapeCast S2048x128 v5 hc5) h11)) h22)) h40)
              (extractStridedSlice S2041x128 ![4, 0]
                (addf
                  (extractStridedSlice S2045x128 ![0, 0]
                    (addf (extractStridedSlice S2047x128 ![0, 0] (shapeCast S2048x128 v5 hc5) h10)
                      (extractStridedSlice S2047x128 ![1, 0] (shapeCast S2048x128 v5 hc5) h11)) h20)
                  (extractStridedSlice S2045x128 ![2, 0]
                    (addf (extractStridedSlice S2047x128 ![0, 0] (shapeCast S2048x128 v5 hc5) h10)
                      (extractStridedSlice S2047x128 ![1, 0] (shapeCast S2048x128 v5 hc5) h11)) h22)) h44)) hb)
          (truncf .bf16 (shapeCast S128x128 v0 hc0) hb)
          (constant (F := Ideal) S2041x128 .f32 0x00000000#32))
        (shapeCast S2041x128 v18 hc18) (ix2 w n)
      = Cert.WindowLoss.kerDev (fun r k => v5 (ix3 (0 : Fin 1) r k)) (fun k n => v0 (ix2 k n))
          (fun w n => v18 (ix2 w n)) w n := by
  refine (subf_apply _ _ _).trans ?_
  refine congrArg₂ (· - ·) ?_ (congrFun (shapeCast_self v18 hc18) (ix2 w n))
  refine (Cert.LibPlainDot.matmul_zero_at dot_S2041x128_S128x128_S2041x128_1_0_0_1_n_n rfl rfl rfl rfl rfl rfl rfl rfl
    none _ _ w n).trans ?_
  refine Finset.sum_congr rfl fun k _ => congrArg₂ (· * ·) ?_ ?_
  · refine (truncf_apply _ hb _).trans ?_
    refine (window_apply (shapeCast S2048x128 v5 hc5) h10 h11 h20 h22 h40 h44 w k).trans ?_
    exact congrArg (fun f => Cert.WindowLoss.kerWin f w k)
      (funext fun r => funext fun c => shapeCast_1ab_ab_apply v5 hc5 r c)
  · refine (truncf_apply _ hb _).trans ?_
    exact congrFun (shapeCast_self v0 hc0) (ix2 k n)

/-- The stored value of one batch row. -/
theorem pay_apply (v0 : Vec Ideal S128x128 .f32) (v5 : Vec Ideal S1x2048x128 .f32) (v18 : Vec Ideal S2041x128 .f32) (i : S1x1x1.Idx) :
    Gen.k0_pay1 (F := Ideal) v0 v5 v18 i
      = Cert.WindowLoss.kerRowLoss (fun r k => v5 (ix3 (0 : Fin 1) r k)) (fun k n => v0 (ix2 k n)) (fun w n => v18 (ix2 w n)) := by
  unfold Gen.k0_pay1
  refine (total_apply _ _ _ _ _ _ _ _ _ _ i).trans ?_
  unfold Cert.WindowLoss.kerRowLoss
  refine Finset.sum_congr rfl fun w _ => Finset.sum_congr rfl fun n _ => ?_
  refine (mulf_apply _ _ _).trans ?_
  exact congrArg₂ (· * ·) (dev_apply v0 v5 v18 _ _ _ _ _ _ _ _ _ _ w n) (dev_apply v0 v5 v18 _ _ _ _ _ _ _ _ _ _ w n)

end Cert.KernelIdeal.PayValue

end
-- ==== Proof.Algebra.lean ====
/-
  The two arrangements of Spec.lean are one function.  Per window and column the kernel's tree of
  pairwise sums is the plain sum of the window's eight rows (addition on the extended reals is
  commutative and associative); dividing that sum by the real 8 is multiplying it by 1/8, and
  (s · 1/8) · M = s · (M · 1/8) because multiplication is commutative and associative too.  The
  squares are then added over the same index set, grouped differently, each group from zero.
-/
import proofs.«102863_j2740189135096_2_alg».proof.Proof.Spec

noncomputable section

namespace Cert.WindowLoss

open Idealize.ShloMosaic

/-- The literal 8.0 denotes the real 8. -/
theorem c8_eq : c8 = ((8 : ℝ) : EReal) := by
  simp [c8, Ideal.ofBits, Ideal.ieee, -EReal.coe_mul]; norm_num

/-- The literal 0.125 denotes the real 1/8. -/
theorem c18_eq : c18 = ((1 / 8 : ℝ) : EReal) := by
  simp [c18, Ideal.ofBits, Ideal.ieee, -EReal.coe_mul]; norm_num

/-- The tree of pairwise sums is the sum over the window's eight rows. -/
theorem kerWin_eq (X : Fin 2048 → Fin 128 → EReal) (w : Fin 2041) (k : Fin 128) :
    kerWin X w k = ∑ j : Fin 8, X (wrow w j) k := by
  unfold kerWin
  rw [Fin.sum_univ_eight]
  ac_rfl

/-- One term of the contraction: the window sum against the scaled map is the window mean against the map. -/
theorem term_eq (s M : EReal) : s * (M * c18) = Ideal.div (0 + s) c8 * M := by
  rw [zero_add, c8_eq, Ideal.div_coe (by norm_num : (8 : ℝ) ≠ 0), c18_eq]
  ac_rfl

theorem kerDev_eq (X : Fin 2048 → Fin 128 → EReal) (M : Fin 128 → Fin 128 → EReal) (nk : Fin 2041 → Fin 128 → EReal)
    (w : Fin 2041) (n : Fin 128) :
    kerDev X (fun k n => M n k * c18) nk w n = refDev X M nk w n := by
  unfold kerDev refDev
  refine congrArg (· - nk w n) (Finset.sum_congr rfl fun k _ => ?_)
  rw [kerWin_eq, term_eq]

/-- THE LAW: the kernel's arrangement, with the transposed map scaled by the literal 0.125, is the reference's. -/
theorem kerLoss_eq_refLoss (x : Fin 32 → Fin 2048 → Fin 128 → EReal) (M : Fin 128 → Fin 128 → EReal)
    (nk : Fin 2041 → Fin 128 → EReal) :
    kerLoss x (fun k n => M n k * c18) nk = refLoss x M nk := by
  unfold kerLoss refLoss kerRowLoss
  simp only [kerDev_eq]

end Cert.WindowLoss

end
-- ==== Proof.KernelValue.lean ====
/-
  The kernel program's result.  Grid point `t` stages batch rows 4t … 4t + 3, the whole scaled map and the
  whole target, and writes back a [4, 1, 1] block holding each staged row's sum of squared deviations; the
  eight blocks tile the [32, 1, 1] array, so entry `b` of it is that sum for batch row `b` of the argument.
  The host then adds the 32 entries from zero and divides by the count: the kernel's arrangement of
  Spec.lean, which Algebra.lean shows is the reference's.
-/
import proofs.«102863_j2740189135096_2_alg».proof.Proof.KernelBody
import proofs.«102863_j2740189135096_2_alg».proof.Proof.KernelHost
import proofs.«102863_j2740189135096_2_alg».proof.Proof.KernelPayload
import proofs.«102863_j2740189135096_2_alg».proof.Proof.Algebra
import Idealize.ShloMosaic.Lib.Pipeline.Value
import Idealize.ShloMosaic.PureOps.Ideal.Laws

noncomputable section

namespace Cert.KernelIdeal.ArrayValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The index maps over the grid: the batch window and the output move with the point, the map and the target stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch window's block at point `t` holds rows 4t … 4t + 3 of the argument. -/
theorem iblk0_apply (c : Dev nD) (t : Fin cfg0.N) (z : S4x2048x128.Idx) (k : S32x2048x128.Idx)
    (h0 : (k 0).val = 4 * t.val + (z 0).val) (h1 : (k 1).val = (z 1).val) (h2 : (k 2).val = (z 2).val) :
    (iblk m c 0 t : Vec Ideal S4x2048x128 .f32) z = (V m c main_arg0 : S32x2048x128.Idx → Elt Ideal .f32) k := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 4 + 1 * (z 0).val = (k 0).val; omega
  | ⟨1, _⟩ => show win0_0.index t (1 : Fin 3) * 2048 + 1 * (z 1).val = (k 1).val; omega
  | ⟨2, _⟩ => show win0_0.index t (2 : Fin 3) * 128 + 1 * (z 2).val = (k 2).val; omega

/-- The map's block is the whole scaled map at every point. -/
theorem iblk1_eq (c : Dev nD) (t : Fin cfg0.N) :
    (iblk m c 1 t : Vec Ideal S128x128 .f32) = (V m c main_v2 : S128x128.Idx → Elt Ideal .f32) := by
  obtain ⟨-, -, -, e0, e1, -⟩ := idx_facts t
  funext z
  unfold iblk
  rw [View.read_apply]
  show V m c main_v2 _ = V m c main_v2 _
  refine congrArg (V m c main_v2) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The target's block is the whole target at every point. -/
theorem iblk2_eq (c : Dev nD) (t : Fin cfg0.N) :
    (iblk m c 2 t : Vec Ideal S2041x128 .f32) = (V m c main_v20 : S2041x128.Idx → Elt Ideal .f32) := by
  obtain ⟨-, -, -, -, -, e0, e1, -⟩ := idx_facts t
  funext z
  unfold iblk
  rw [View.read_apply]
  show V m c main_v20 _ = V m c main_v20 _
  refine congrArg (V m c main_v20) (funext fun a => Fin.ext ?_)
  match a with
  | ⟨0, _⟩ => show win0_2.index t (0 : Fin 2) * 2041 + 1 * (z 0).val = (z 0).val; omega
  | ⟨1, _⟩ => show win0_2.index t (1 : Fin 2) * 128 + 1 * (z 1).val = (z 1).val; omega

/-- Entry `i` of the [32, 1, 1] result array: the sum of squared deviations of batch row `i 0`. -/
def rowSums (a0 : S32x2048x128.Idx → EReal) (Mt : S128x128.Idx → EReal) (nk : S2041x128.Idx → EReal) :
    S32x1x1.Idx → EReal :=
  fun i => Cert.WindowLoss.kerRowLoss (fun r k => a0 (ix3 (i 0) r k)) (fun k n => Mt (ix2 k n)) (fun w n => nk (ix2 w n))

/-- WHAT POINT `t` WRITES BACK is block `t` of `rowSums` of the arrays as the region finds them. -/
theorem flushed_eq (c : Dev nD) (t : Fin cfg0.N) :
    (dats m 0 c).flushed 3 t
      = ((cfg0.win 3).blk t).view.read (Elt Ideal) (rowSums (V m c main_arg0) (V m c main_v2) (V m c main_v20)) := by
  obtain ⟨-, -, -, -, -, -, -, e0, e1, e2⟩ := idx_facts t
  show (cfg0.win 3).cut (grid0.coords t) ((dats m 0 c).after 3 t) = _
  rw [after0_3]
  unfold outsAt0
  funext y
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) y
    = rowSums (V m c main_arg0) (V m c main_v2) (V m c main_v20) (((cfg0.win 3).blk t).view.emb y)
  rw [Cert.KernelIdeal.BodyValue.out_apply, Cert.KernelIdeal.PayValue.pay_apply, iblk1_eq, iblk2_eq]
  unfold rowSums
  refine congrArg (fun X => Cert.WindowLoss.kerRowLoss X _ _) (funext fun r => funext fun k => ?_)
  unfold Cert.KernelIdeal.BodyValue.rowOf
  refine iblk0_apply m c t _ _ ?_ rfl rfl
  show (((cfg0.win 3).blk t).view.emb y 0).val = 4 * t.val + (y 0).val
  show win0_3.index t (0 : Fin 3) * 4 + 1 * (y 0).val = 4 * t.val + (y 0).val
  omega

/-- An index of the result array is in point `t`'s block iff each coordinate is in the block's range. -/
theorem mem_blk (t : Fin cfg0.N) (i : S32x1x1.Idx) :
    i ∈ ((cfg0.win 3).blk t).view.set
      ↔ ∀ a : Fin 3, win0_3.index t a * S4x1x1.size a ≤ (i a).val ∧ (i a).val < win0_3.index t a * S4x1x1.size a + S4x1x1.size a := by
  show i ∈ ((View.whole main_v21).slice (win0_3.rect t)).set ↔ _
  rw [View.set_slice_whole, Rect.mem_set_unit]
  exact Iff.rfl

/-- THE ARRAY after the run: every entry is its batch row's sum (the eight blocks tile it). -/
theorem final (c : Dev nD) :
    (dats m 0 c).arrAt 3 cfg0.N = rowSums (V m c main_arg0) (V m c main_v2) (V m c main_v20) :=
  (dats m 0 c).arrAt_eq_of_cover 3 _ (fun t _ => flushed_eq m c t) fun i => by
    have hi0 : (i 0).val < 32 := (i 0).isLt
    have hi1 : (i 1).val < 1 := (i 1).isLt
    have hi2 : (i 2).val < 1 := (i 2).isLt
    have hN : cfg0.N = 8 := N_0
    refine ⟨⟨(i 0).val / 4, by rw [hN]; omega⟩, flush0_3 _, ?_⟩
    rw [mem_blk]
    obtain ⟨-, -, -, -, -, -, -, e0, e1, e2⟩ := idx_facts ⟨(i 0).val / 4, by rw [hN]; omega⟩
    intro a
    match a with
    | ⟨0, _⟩ =>
      show win0_3.index _ (0 : Fin 3) * 4 ≤ (i 0).val ∧ (i 0).val < win0_3.index _ (0 : Fin 3) * 4 + 4
      rw [e0]; show (i 0).val / 4 * 4 ≤ (i 0).val ∧ (i 0).val < (i 0).val / 4 * 4 + 4; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 1 ≤ (i 2).val ∧ (i 2).val < win0_3.index _ (2 : Fin 3) * 1 + 1
      rw [e2]; omega

end Cert.KernelIdeal.ArrayValue

end
-- ==== Proof.KernelRun.lean ====
/-
  The kernel program's run, read: the result buffer ends at the reference's arrangement of Spec.lean
  (through the kernel's own arrangement and the law of Algebra.lean), the arguments unchanged.
-/
import proofs.«102863_j2740189135096_2_alg».proof.Proof.KernelValue

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.ArrayValue
open Idealize.ShloMosaic.Pipeline (Dat)

variable (m : (ℓ : Loc nD τ sig) → Buf (Elt Ideal) ℓ) (ρ : Dev nD → PrngReg)

/-- The indices of a [32, 1, 1] array are its 32 rows. -/
def rowEquiv : S32x1x1.Idx ≃ Fin 32 where
  toFun i := i 0
  invFun b := ix3 b 0 0
  left_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)
  right_inv b := rfl

/-- A sum over a [32, 1, 1] array is the sum over its rows. -/
theorem sum_rows (f : S32x1x1.Idx → EReal) : ∑ i : S32x1x1.Idx, f i = ∑ b : Fin 32, f (ix3 b 0 0) :=
  Fintype.sum_equiv rowEquiv _ _ fun i => congrArg f (rowEquiv.left_inv i).symm

/-- The host lines after the region: the row sums added from zero, divided by the literal count. -/
theorem tail_eq (c : Dev nD) :
    Pipeline.afterTail₀ cfgs (dats m) 0 (V0 m) [hostOps1] c main_v23
      = Host.divf (Host.reduceAdd ((dats m 0 c).arrAt 3 cfg0.N) (constant (F := Ideal) S_ .f32 0x00000000#32)
            Facts₀.reducesTo_S32x1x1_S_d0_1_2 Facts₀.h_S_)
          (constant (F := Ideal) S_ .f32 0x4AFF2000#32) := by
  unfold Pipeline.afterTail₀
  show StableHlo.after hostOps1 _ (Proc.devRef .tc main_v23) = _
  after_results
  rw [Pipeline.withArrays_arr spec0 launch0.win.arr_inj c _ _ 3]

/-- THE RESULT: the reference's mean squared deviation of the launch contents. -/
theorem result_eq (c : Dev nD) :
    Pipeline.afterTail₀ cfgs (dats m) 0 (V0 m) [hostOps1] c main_v23
      = fun _ => Cert.WindowLoss.refLoss
          (fun b r k => m ((c : Thread nD τ).loc main_arg0) (ix3 b r k))
          (fun n k => m ((c : Thread nD τ).loc main_arg1) (ix2 n k))
          (fun w n => Cert.WindowLoss.nk (F := Ideal) (m ((c : Thread nD τ).loc main_arg2)) (m ((c : Thread nD τ).loc main_arg3)) (ix2 w n)) := by
  rw [tail_eq, final, Cert.KernelIdeal.HostValue.V_map, Cert.KernelIdeal.HostValue.V_target, V_main_arg0]
  funext j
  rw [← Cert.WindowLoss.kerLoss_eq_refLoss]
  show Ideal.div (Ideal.hostReduceAdd Facts₀.reducesTo_S32x1x1_S_d0_1_2 _ (Ideal.ofBits .f32 0x00000000#32) j) (Ideal.ofBits .f32 0x4AFF2000#32) = _
  rw [Ideal.hostReduceAdd_total _ (fun b => b.elim0), Ideal.ofBits_zero_f32, sum_rows]
  unfold Cert.WindowLoss.kerLoss rowSums
  refine congrArg (fun s => Ideal.div (0 + s) Cert.WindowLoss.cTotal) (Finset.sum_congr rfl fun b _ => ?_)
  refine congrArg (fun Mt => Cert.WindowLoss.kerRowLoss _ Mt _) (funext fun k => funext fun n => ?_)
  have ht : (transpose S128x128 [1, 0] (m ((c : Thread nD τ).loc main_arg1) : S128x128.Idx → EReal)
        Facts₀.transposes_S128x128_S128x128_1_0) (ix2 k n)
      = (m ((c : Thread nD τ).loc main_arg1) : S128x128.Idx → EReal) (ix2 n k) :=
    transpose_apply _ _ _ (ix2 k n) (ix2 n k) (fun b => by match b with | ⟨0, _⟩ => rfl | ⟨1, _⟩ => rfl)
  exact congrArg (· * Cert.WindowLoss.c18) ht

/-- The run of the kernel program at the exact instance, read. -/
theorem run : θ_run defs (onTc (τ := τ) (main (F := Ideal))) ⟨m, fun _ => 0, ρ⟩ fun r => ∀ c : Dev nD,
      r.2.mem ((c : Thread nD τ).loc main_v23)
          = (fun _ => Cert.WindowLoss.refLoss
              (fun b r k => m ((c : Thread nD τ).loc main_arg0) (ix3 b r k))
              (fun n k => m ((c : Thread nD τ).loc main_arg1) (ix2 n k))
              (fun w n => Cert.WindowLoss.nk (F := Ideal) (m ((c : Thread nD τ).loc main_arg2)) (m ((c : Thread nD τ).loc main_arg3)) (ix2 w n)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v23 (Pipeline.mem_restRefs_of main_v23 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.RunValue

end
-- ==== Proof.RefRun.lean ====
/-
  The reference program's @main as the list of its 73 operations in order — the call of the floored
  remainder unfolded into its 21 operations over the call's own buffers — and its run: every weakly fair
  execution terminates with each buffer at the fold of the operations' results over the launch contents.
-/
import proofs.«102863_j2740189135096_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The 24 operations before the call. -/
abbrev opsA : List (HloOp τ sig (Elt F)) :=
  [ StableHlo.nullary main_v0 (iotaInDim S2041 32 0),
    StableHlo.unary main_v0 main_v1 (broadcastInDim S2041x1 ![0] bcast_S2041_S2041x1_0 : (⟨S2041, .i32⟩ : BufTy).Contents (Elt F) → (⟨S2041x1, .i32⟩ : BufTy).Contents (Elt F)),
    StableHlo.nullary main_v2 (iotaInDim S8 32 0),
    StableHlo.unary main_v2 main_v3 (broadcastInDim S1x8 ![1] bcast_S8_S1x8_1 : (⟨S8, .i32⟩ : BufTy).Contents (Elt F) → (⟨S1x8, .i32⟩ : BufTy).Contents (Elt F)),
    StableHlo.unary main_v1 main_v4 (broadcastInDim S2041x8 ![0, 1] bcast_S2041x1_S2041x8_0_1 : (⟨S2041x1, .i32⟩ : BufTy).Contents (Elt F) → (⟨S2041x8, .i32⟩ : BufTy).Contents (Elt F)),
    StableHlo.unary main_v3 main_v5 (broadcastInDim S2041x8 ![0, 1] bcast_S1x8_S2041x8_0_1 : (⟨S1x8, .i32⟩ : BufTy).Contents (Elt F) → (⟨S2041x8, .i32⟩ : BufTy).Contents (Elt F)),
    StableHlo.binary main_v4 main_v5 main_v6 (addi : (⟨S2041x8, .i32⟩ : BufTy).Contents (Elt F) → (⟨S2041x8, .i32⟩ : BufTy).Contents (Elt F) → (⟨S2041x8, .i32⟩ : BufTy).Contents (Elt F)),
    StableHlo.nullary main_c (constantI S_ 32 0#32),
    StableHlo.unary main_c main_v7 (broadcastInDim S2041x8 ![] bcast_S_S2041x8 : (⟨S_, .i32⟩ : BufTy).Contents (Elt F) → (⟨S2041x8, .i32⟩ : BufTy).Contents (Elt F)),
    StableHlo.binary main_v6 main_v7 main_v8 (cmpi .slt : (⟨S2041x8, .i32⟩ : BufTy).Contents (Elt F) → (⟨S2041x8, .i32⟩ : BufTy).Contents (Elt F) → (⟨S2041x8, .i1⟩ : BufTy).Contents (Elt F)),
    StableHlo.nullary main_c_0 (constantI S_ 32 2048#32),
    StableHlo.unary main_c_0 main_v9 (broadcastInDim S2041x8 ![] bcast_S_S2041x8 : (⟨S_, .i32⟩ : BufTy).Contents (Elt F) → (⟨S2041x8, .i32⟩ : BufTy).Contents (Elt F)),
    StableHlo.binary main_v6 main_v9 main_v10 (addi : (⟨S2041x8, .i32⟩ : BufTy).Contents (Elt F) → (⟨S2041x8, .i32⟩ : BufTy).Contents (Elt F) → (⟨S2041x8, .i32⟩ : BufTy).Contents (Elt F)),
    StableHlo.ternary main_v8 main_v10 main_v6 main_v11 (select : (⟨S2041x8, .i1⟩ : BufTy).Contents (Elt F) → (⟨S2041x8, .i32⟩ : BufTy).Contents (Elt F) → (⟨S2041x8, .i32⟩ : BufTy).Contents (Elt F) → (⟨S2041x8, .i32⟩ : BufTy).Contents (Elt F)),
    StableHlo.unary main_v11 main_v12 (broadcastInDim S2041x8x1 ![0, 1] bcast_S2041x8_S2041x8x1_0_1 : (⟨S2041x8, .i32⟩ : BufTy).Contents (Elt F) → (⟨S2041x8x1, .i32⟩ : BufTy).Contents (Elt F)),
    StableHlo.binary main_arg0 main_v12 main_v13 ((fun x i => Host.gather gather_S32x2048x128_S2041x8x1_S32x2041x8x128_03_1_n_n_1_2_321128 x i) : (⟨S32x2048x128, .f32⟩ : BufTy).Contents (Elt F) → (⟨S2041x8x1, .i32⟩ : BufTy).Contents (Elt F) → (⟨S32x2041x8x128, .f32⟩ : BufTy).Contents (Elt F)),
    StableHlo.nullary main_cst (constant S_ .f32 0x00000000#32),
    StableHlo.binary main_v13 main_cst main_v14 ((fun x v => Host.reduceAdd x v reducesTo_S32x2041x8x128_S32x2041x128_d2 h_S_) : (⟨S32x2041x8x128, .f32⟩ : BufTy).Contents (Elt F) → (⟨S_, .f32⟩ : BufTy).Contents (Elt F) → (⟨S32x2041x128, .f32⟩ : BufTy).Contents (Elt F)),
    StableHlo.nullary main_cst_1 (constant S_ .f32 0x41000000#32),
    StableHlo.unary main_cst_1 main_v15 (broadcastInDim S32x2041x128 ![] bcast_S_S32x2041x128 : (⟨S_, .f32⟩ : BufTy).Contents (Elt F) → (⟨S32x2041x128, .f32⟩ : BufTy).Contents (Elt F)),
    StableHlo.binary main_v14 main_v15 main_v16 (Host.divf : (⟨S32x2041x128, .f32⟩ : BufTy).Contents (Elt F) → (⟨S32x2041x128, .f32⟩ : BufTy).Contents (Elt F) → (⟨S32x2041x128, .f32⟩ : BufTy).Contents (Elt F)),
    StableHlo.binary main_v16 main_arg1 main_v17 ((fun l r => Host.dotGeneral dot_S32x2041x128_S128x128_S32x2041x128_2_1_01_0_n_n none l r) : (⟨S32x2041x128, .f32⟩ : BufTy).Contents (Elt F) → (⟨S128x128, .f32⟩ : BufTy).Contents (Elt F) → (⟨S32x2041x128, .f32⟩ : BufTy).Contents (Elt F)),
    StableHlo.nullary main_v18 (iotaInDim S2041 32 0),
    StableHlo.nullary main_c_2 (constantI S_ 32 64#32) ]

/-- The call: the floored remainder's 21 operations over the call's buffers. -/
abbrev opsB : List (HloOp τ sig (Elt F)) :=
  [ StableHlo.TRef.unary (.of main_c_2 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2041 ![] bcast_S_S2041),
    StableHlo.TRef.binary (.of main_v18 : StableHlo.TRef sig ⟨S2041, .i32⟩) main_call0.v3 main_call0.v4 Host.remsi,
    StableHlo.TRef.nullary main_call0.c_1 (constantI S_ 32 0#32),
    StableHlo.TRef.unary main_call0.c_1 main_call0.v5 (broadcastInDim S2041 ![] bcast_S_S2041),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2041 ![] bcast_S_S2041),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2041 ![] bcast_S_S2041),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2041 ![] bcast_S_S2041),
    StableHlo.TRef.binary main_call0.v4 main_call0.v13 main_call0.v14 addi,
    StableHlo.TRef.ternary main_call0.v12 main_call0.v14 main_call0.v4 main_call0.v15 select ]

/-- The 28 operations after the call. -/
abbrev opsC : List (HloOp τ sig (Elt F)) :=
  [ StableHlo.unary main_arg2 main_v20 ((transpose S64x128 [1, 0] · transposes_S128x64_S64x128_1_0) : (⟨S128x64, .f32⟩ : BufTy).Contents (Elt F) → (⟨S64x128, .f32⟩ : BufTy).Contents (Elt F)),
    StableHlo.nullary main_c_3 (constantI S_ 32 0#32),
    StableHlo.unary main_c_3 main_v21 (broadcastInDim S2041 ![] bcast_S_S2041 : (⟨S_, .i32⟩ : BufTy).Contents (Elt F) → (⟨S2041, .i32⟩ : BufTy).Contents (Elt F)),
    StableHlo.binary main_v19 main_v21 main_v22 (cmpi .slt : (⟨S2041, .i32⟩ : BufTy).Contents (Elt F) → (⟨S2041, .i32⟩ : BufTy).Contents (Elt F) → (⟨S2041, .i1⟩ : BufTy).Contents (Elt F)),
    StableHlo.nullary main_c_4 (constantI S_ 32 64#32),
    StableHlo.unary main_c_4 main_v23 (broadcastInDim S2041 ![] bcast_S_S2041 : (⟨S_, .i32⟩ : BufTy).Contents (Elt F) → (⟨S2041, .i32⟩ : BufTy).Contents (Elt F)),
    StableHlo.binary main_v19 main_v23 main_v24 (addi : (⟨S2041, .i32⟩ : BufTy).Contents (Elt F) → (⟨S2041, .i32⟩ : BufTy).Contents (Elt F) → (⟨S2041, .i32⟩ : BufTy).Contents (Elt F)),
    StableHlo.ternary main_v22 main_v24 main_v19 main_v25 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    StableHlo.unary main_v25 main_v26 (broadcastInDim S2041x1 ![0] bcast_S2041_S2041x1_0 : (⟨S2041, .i32⟩ : BufTy).Contents (Elt F) → (⟨S2041x1, .i32⟩ : BufTy).Contents (Elt F)),
    StableHlo.binary main_v20 main_v26 main_v27 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    StableHlo.nullary main_c_5 (constantI S_ 32 0#32),
    StableHlo.unary main_c_5 main_v28 (broadcastInDim S2041 ![] bcast_S_S2041 : (⟨S_, .i32⟩ : BufTy).Contents (Elt F) → (⟨S2041, .i32⟩ : BufTy).Contents (Elt F)),
    StableHlo.binary main_v19 main_v28 main_v29 (cmpi .slt : (⟨S2041, .i32⟩ : BufTy).Contents (Elt F) → (⟨S2041, .i32⟩ : BufTy).Contents (Elt F) → (⟨S2041, .i1⟩ : BufTy).Contents (Elt F)),
    StableHlo.nullary main_c_6 (constantI S_ 32 64#32),
    StableHlo.unary main_c_6 main_v30 (broadcastInDim S2041 ![] bcast_S_S2041 : (⟨S_, .i32⟩ : BufTy).Contents (Elt F) → (⟨S2041, .i32⟩ : BufTy).Contents (Elt F)),
    StableHlo.binary main_v19 main_v30 main_v31 (addi : (⟨S2041, .i32⟩ : BufTy).Contents (Elt F) → (⟨S2041, .i32⟩ : BufTy).Contents (Elt F) → (⟨S2041, .i32⟩ : BufTy).Contents (Elt F)),
    StableHlo.ternary main_v29 main_v31 main_v19 main_v32 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    StableHlo.unary main_v32 main_v33 (broadcastInDim S2041x1 ![0] bcast_S2041_S2041x1_0 : (⟨S2041, .i32⟩ : BufTy).Contents (Elt F) → (⟨S2041x1, .i32⟩ : BufTy).Contents (Elt F)),
    StableHlo.binary main_arg3 main_v33 main_v34 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    StableHlo.binary main_v27 main_v34 main_v35 (mulf : (⟨S2041x128, .f32⟩ : BufTy).Contents (Elt F) → (⟨S2041x128, .f32⟩ : BufTy).Contents (Elt F) → (⟨S2041x128, .f32⟩ : BufTy).Contents (Elt F)),
    StableHlo.unary main_v35 main_v36 (broadcastInDim S1x2041x128 ![1, 2] bcast_S2041x128_S1x2041x128_1_2 : (⟨S2041x128, .f32⟩ : BufTy).Contents (Elt F) → (⟨S1x2041x128, .f32⟩ : BufTy).Contents (Elt F)),
    StableHlo.unary main_v36 main_v37 (broadcastInDim S32x2041x128 ![0, 1, 2] bcast_S1x2041x128_S32x2041x128_0_1_2 : (⟨S1x2041x128, .f32⟩ : BufTy).Contents (Elt F) → (⟨S32x2041x128, .f32⟩ : BufTy).Contents (Elt F)),
    StableHlo.binary main_v17 main_v37 main_v38 (subf : (⟨S32x2041x128, .f32⟩ : BufTy).Contents (Elt F) → (⟨S32x2041x128, .f32⟩ : BufTy).Contents (Elt F) → (⟨S32x2041x128, .f32⟩ : BufTy).Contents (Elt F)),
    StableHlo.binary main_v38 main_v38 main_v39 (mulf : (⟨S32x2041x128, .f32⟩ : BufTy).Contents (Elt F) → (⟨S32x2041x128, .f32⟩ : BufTy).Contents (Elt F) → (⟨S32x2041x128, .f32⟩ : BufTy).Contents (Elt F)),
    StableHlo.nullary main_cst_7 (constant S_ .f32 0x00000000#32),
    StableHlo.binary main_v39 main_cst_7 main_v40 ((fun x v => Host.reduceAdd x v reducesTo_S32x2041x128_S_d0_1_2 h_S_) : (⟨S32x2041x128, .f32⟩ : BufTy).Contents (Elt F) → (⟨S_, .f32⟩ : BufTy).Contents (Elt F) → (⟨S_, .f32⟩ : BufTy).Contents (Elt F)),
    StableHlo.nullary main_cst_8 (constant S_ .f32 0x4AFF2000#32),
    StableHlo.binary main_v40 main_cst_8 main_v41 (Host.divf : (⟨S_, .f32⟩ : BufTy).Contents (Elt F) → (⟨S_, .f32⟩ : BufTy).Contents (Elt F) → (⟨S_, .f32⟩ : BufTy).Contents (Elt F)) ]

/-- @main's operations in order, the call unfolded. -/
abbrev ops : List (HloOp τ sig (Elt F)) :=
  [ StableHlo.nullary main_v0 (iotaInDim S2041 32 0),
    StableHlo.unary main_v0 main_v1 (broadcastInDim S2041x1 ![0] bcast_S2041_S2041x1_0 : (⟨S2041, .i32⟩ : BufTy).Contents (Elt F) → (⟨S2041x1, .i32⟩ : BufTy).Contents (Elt F)),
    StableHlo.nullary main_v2 (iotaInDim S8 32 0),
    StableHlo.unary main_v2 main_v3 (broadcastInDim S1x8 ![1] bcast_S8_S1x8_1 : (⟨S8, .i32⟩ : BufTy).Contents (Elt F) → (⟨S1x8, .i32⟩ : BufTy).Contents (Elt F)),
    StableHlo.unary main_v1 main_v4 (broadcastInDim S2041x8 ![0, 1] bcast_S2041x1_S2041x8_0_1 : (⟨S2041x1, .i32⟩ : BufTy).Contents (Elt F) → (⟨S2041x8, .i32⟩ : BufTy).Contents (Elt F)),
    StableHlo.unary main_v3 main_v5 (broadcastInDim S2041x8 ![0, 1] bcast_S1x8_S2041x8_0_1 : (⟨S1x8, .i32⟩ : BufTy).Contents (Elt F) → (⟨S2041x8, .i32⟩ : BufTy).Contents (Elt F)),
    StableHlo.binary main_v4 main_v5 main_v6 (addi : (⟨S2041x8, .i32⟩ : BufTy).Contents (Elt F) → (⟨S2041x8, .i32⟩ : BufTy).Contents (Elt F) → (⟨S2041x8, .i32⟩ : BufTy).Contents (Elt F)),
    StableHlo.nullary main_c (constantI S_ 32 0#32),
    StableHlo.unary main_c main_v7 (broadcastInDim S2041x8 ![] bcast_S_S2041x8 : (⟨S_, .i32⟩ : BufTy).Contents (Elt F) → (⟨S2041x8, .i32⟩ : BufTy).Contents (Elt F)),
    StableHlo.binary main_v6 main_v7 main_v8 (cmpi .slt : (⟨S2041x8, .i32⟩ : BufTy).Contents (Elt F) → (⟨S2041x8, .i32⟩ : BufTy).Contents (Elt F) → (⟨S2041x8, .i1⟩ : BufTy).Contents (Elt F)),
    StableHlo.nullary main_c_0 (constantI S_ 32 2048#32),
    StableHlo.unary main_c_0 main_v9 (broadcastInDim S2041x8 ![] bcast_S_S2041x8 : (⟨S_, .i32⟩ : BufTy).Contents (Elt F) → (⟨S2041x8, .i32⟩ : BufTy).Contents (Elt F)),
    StableHlo.binary main_v6 main_v9 main_v10 (addi : (⟨S2041x8, .i32⟩ : BufTy).Contents (Elt F) → (⟨S2041x8, .i32⟩ : BufTy).Contents (Elt F) → (⟨S2041x8, .i32⟩ : BufTy).Contents (Elt F)),
    StableHlo.ternary main_v8 main_v10 main_v6 main_v11 (select : (⟨S2041x8, .i1⟩ : BufTy).Contents (Elt F) → (⟨S2041x8, .i32⟩ : BufTy).Contents (Elt F) → (⟨S2041x8, .i32⟩ : BufTy).Contents (Elt F) → (⟨S2041x8, .i32⟩ : BufTy).Contents (Elt F)),
    StableHlo.unary main_v11 main_v12 (broadcastInDim S2041x8x1 ![0, 1] bcast_S2041x8_S2041x8x1_0_1 : (⟨S2041x8, .i32⟩ : BufTy).Contents (Elt F) → (⟨S2041x8x1, .i32⟩ : BufTy).Contents (Elt F)),
    StableHlo.binary main_arg0 main_v12 main_v13 ((fun x i => Host.gather gather_S32x2048x128_S2041x8x1_S32x2041x8x128_03_1_n_n_1_2_321128 x i) : (⟨S32x2048x128, .f32⟩ : BufTy).Contents (Elt F) → (⟨S2041x8x1, .i32⟩ : BufTy).Contents (Elt F) → (⟨S32x2041x8x128, .f32⟩ : BufTy).Contents (Elt F)),
    StableHlo.nullary main_cst (constant S_ .f32 0x00000000#32),
    StableHlo.binary main_v13 main_cst main_v14 ((fun x v => Host.reduceAdd x v reducesTo_S32x2041x8x128_S32x2041x128_d2 h_S_) : (⟨S32x2041x8x128, .f32⟩ : BufTy).Contents (Elt F) → (⟨S_, .f32⟩ : BufTy).Contents (Elt F) → (⟨S32x2041x128, .f32⟩ : BufTy).Contents (Elt F)),
    StableHlo.nullary main_cst_1 (constant S_ .f32 0x41000000#32),
    StableHlo.unary main_cst_1 main_v15 (broadcastInDim S32x2041x128 ![] bcast_S_S32x2041x128 : (⟨S_, .f32⟩ : BufTy).Contents (Elt F) → (⟨S32x2041x128, .f32⟩ : BufTy).Contents (Elt F)),
    StableHlo.binary main_v14 main_v15 main_v16 (Host.divf : (⟨S32x2041x128, .f32⟩ : BufTy).Contents (Elt F) → (⟨S32x2041x128, .f32⟩ : BufTy).Contents (Elt F) → (⟨S32x2041x128, .f32⟩ : BufTy).Contents (Elt F)),
    StableHlo.binary main_v16 main_arg1 main_v17 ((fun l r => Host.dotGeneral dot_S32x2041x128_S128x128_S32x2041x128_2_1_01_0_n_n none l r) : (⟨S32x2041x128, .f32⟩ : BufTy).Contents (Elt F) → (⟨S128x128, .f32⟩ : BufTy).Contents (Elt F) → (⟨S32x2041x128, .f32⟩ : BufTy).Contents (Elt F)),
    StableHlo.nullary main_v18 (iotaInDim S2041 32 0),
    StableHlo.nullary main_c_2 (constantI S_ 32 64#32),
    StableHlo.TRef.unary (.of main_c_2 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2041 ![] bcast_S_S2041),
    StableHlo.TRef.binary (.of main_v18 : StableHlo.TRef sig ⟨S2041, .i32⟩) main_call0.v3 main_call0.v4 Host.remsi,
    StableHlo.TRef.nullary main_call0.c_1 (constantI S_ 32 0#32),
    StableHlo.TRef.unary main_call0.c_1 main_call0.v5 (broadcastInDim S2041 ![] bcast_S_S2041),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2041 ![] bcast_S_S2041),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2041 ![] bcast_S_S2041),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2041 ![] bcast_S_S2041),
    StableHlo.TRef.binary main_call0.v4 main_call0.v13 main_call0.v14 addi,
    StableHlo.TRef.ternary main_call0.v12 main_call0.v14 main_call0.v4 main_call0.v15 select,
    StableHlo.unary main_arg2 main_v20 ((transpose S64x128 [1, 0] · transposes_S128x64_S64x128_1_0) : (⟨S128x64, .f32⟩ : BufTy).Contents (Elt F) → (⟨S64x128, .f32⟩ : BufTy).Contents (Elt F)),
    StableHlo.nullary main_c_3 (constantI S_ 32 0#32),
    StableHlo.unary main_c_3 main_v21 (broadcastInDim S2041 ![] bcast_S_S2041 : (⟨S_, .i32⟩ : BufTy).Contents (Elt F) → (⟨S2041, .i32⟩ : BufTy).Contents (Elt F)),
    StableHlo.binary main_v19 main_v21 main_v22 (cmpi .slt : (⟨S2041, .i32⟩ : BufTy).Contents (Elt F) → (⟨S2041, .i32⟩ : BufTy).Contents (Elt F) → (⟨S2041, .i1⟩ : BufTy).Contents (Elt F)),
    StableHlo.nullary main_c_4 (constantI S_ 32 64#32),
    StableHlo.unary main_c_4 main_v23 (broadcastInDim S2041 ![] bcast_S_S2041 : (⟨S_, .i32⟩ : BufTy).Contents (Elt F) → (⟨S2041, .i32⟩ : BufTy).Contents (Elt F)),
    StableHlo.binary main_v19 main_v23 main_v24 (addi : (⟨S2041, .i32⟩ : BufTy).Contents (Elt F) → (⟨S2041, .i32⟩ : BufTy).Contents (Elt F) → (⟨S2041, .i32⟩ : BufTy).Contents (Elt F)),
    StableHlo.ternary main_v22 main_v24 main_v19 main_v25 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    StableHlo.unary main_v25 main_v26 (broadcastInDim S2041x1 ![0] bcast_S2041_S2041x1_0 : (⟨S2041, .i32⟩ : BufTy).Contents (Elt F) → (⟨S2041x1, .i32⟩ : BufTy).Contents (Elt F)),
    StableHlo.binary main_v20 main_v26 main_v27 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    StableHlo.nullary main_c_5 (constantI S_ 32 0#32),
    StableHlo.unary main_c_5 main_v28 (broadcastInDim S2041 ![] bcast_S_S2041 : (⟨S_, .i32⟩ : BufTy).Contents (Elt F) → (⟨S2041, .i32⟩ : BufTy).Contents (Elt F)),
    StableHlo.binary main_v19 main_v28 main_v29 (cmpi .slt : (⟨S2041, .i32⟩ : BufTy).Contents (Elt F) → (⟨S2041, .i32⟩ : BufTy).Contents (Elt F) → (⟨S2041, .i1⟩ : BufTy).Contents (Elt F)),
    StableHlo.nullary main_c_6 (constantI S_ 32 64#32),
    StableHlo.unary main_c_6 main_v30 (broadcastInDim S2041 ![] bcast_S_S2041 : (⟨S_, .i32⟩ : BufTy).Contents (Elt F) → (⟨S2041, .i32⟩ : BufTy).Contents (Elt F)),
    StableHlo.binary main_v19 main_v30 main_v31 (addi : (⟨S2041, .i32⟩ : BufTy).Contents (Elt F) → (⟨S2041, .i32⟩ : BufTy).Contents (Elt F) → (⟨S2041, .i32⟩ : BufTy).Contents (Elt F)),
    StableHlo.ternary main_v29 main_v31 main_v19 main_v32 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    StableHlo.unary main_v32 main_v33 (broadcastInDim S2041x1 ![0] bcast_S2041_S2041x1_0 : (⟨S2041, .i32⟩ : BufTy).Contents (Elt F) → (⟨S2041x1, .i32⟩ : BufTy).Contents (Elt F)),
    StableHlo.binary main_arg3 main_v33 main_v34 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    StableHlo.binary main_v27 main_v34 main_v35 (mulf : (⟨S2041x128, .f32⟩ : BufTy).Contents (Elt F) → (⟨S2041x128, .f32⟩ : BufTy).Contents (Elt F) → (⟨S2041x128, .f32⟩ : BufTy).Contents (Elt F)),
    StableHlo.unary main_v35 main_v36 (broadcastInDim S1x2041x128 ![1, 2] bcast_S2041x128_S1x2041x128_1_2 : (⟨S2041x128, .f32⟩ : BufTy).Contents (Elt F) → (⟨S1x2041x128, .f32⟩ : BufTy).Contents (Elt F)),
    StableHlo.unary main_v36 main_v37 (broadcastInDim S32x2041x128 ![0, 1, 2] bcast_S1x2041x128_S32x2041x128_0_1_2 : (⟨S1x2041x128, .f32⟩ : BufTy).Contents (Elt F) → (⟨S32x2041x128, .f32⟩ : BufTy).Contents (Elt F)),
    StableHlo.binary main_v17 main_v37 main_v38 (subf : (⟨S32x2041x128, .f32⟩ : BufTy).Contents (Elt F) → (⟨S32x2041x128, .f32⟩ : BufTy).Contents (Elt F) → (⟨S32x2041x128, .f32⟩ : BufTy).Contents (Elt F)),
    StableHlo.binary main_v38 main_v38 main_v39 (mulf : (⟨S32x2041x128, .f32⟩ : BufTy).Contents (Elt F) → (⟨S32x2041x128, .f32⟩ : BufTy).Contents (Elt F) → (⟨S32x2041x128, .f32⟩ : BufTy).Contents (Elt F)),
    StableHlo.nullary main_cst_7 (constant S_ .f32 0x00000000#32),
    StableHlo.binary main_v39 main_cst_7 main_v40 ((fun x v => Host.reduceAdd x v reducesTo_S32x2041x128_S_d0_1_2 h_S_) : (⟨S32x2041x128, .f32⟩ : BufTy).Contents (Elt F) → (⟨S_, .f32⟩ : BufTy).Contents (Elt F) → (⟨S_, .f32⟩ : BufTy).Contents (Elt F)),
    StableHlo.nullary main_cst_8 (constant S_ .f32 0x4AFF2000#32),
    StableHlo.binary main_v40 main_cst_8 main_v41 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsA ++ (opsB ++ (opsC ++ [])) := rfl

/-- @main is the three stretches in order: definitional unfolding peels the block against them. -/
theorem main_chain (c : Dev nD) : main (F := F) c = (Pipeline.chain
    [ StableHlo.seq opsA, StableHlo.seq opsB, StableHlo.seq opsC ] : Prog (TpuEff nD τ sig (Elt F) (Pipeline.Sig Λ₀ (Fin 0) fun p => (pcfgs (F := F) p).Adm) .tc) PUnit) := by
  chain_rfl

/-- @main is that straight line. -/
theorem main_eq (c : Dev nD) : main (F := F) c = StableHlo.seq ops := by
  rw [main_chain, ops_eq, StableHlo.seq_append, StableHlo.seq_append, StableHlo.seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub ..⟩

/-- Every weakly fair execution of @main terminates, and every final state has each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefStages.lean ====
/-
  The reference's value read index by index, in stages over variables of the literal array types:
  the window row numbers w + j as words (no wrap: 0 ≤ w + j ≤ 2047); the rank-4 gather of rows at an index;
  the sum over a window's eight rows; the product with the map over the last axis of each factor; the target
  spread over the batch rows; a sum over rank-3 indices as three nested sums.  Then the two halves of the
  program as pure terms of the arrays and the equation of their composite with the specification's mean
  squared deviation.
-/
import proofs.«102863_j2740189135096_2_alg».proof.Proof.Gen.ReferenceIdeal
import proofs.«102863_j2740189135096_2_alg».proof.Proof.Spec
import proofs.«102863_j2740189135096_2_alg».proof.Proof.LibProductIx
import Idealize.ShloMosaic.Lib.IdealHost
import Idealize.ShloMosaic.Lib.Pipeline.Value

noncomputable section

namespace Cert.ReferenceIdeal.RefStages

open Cert.ReferenceIdeal Cert.ReferenceIdeal.Gen Idealize.ShloMosaic Idealize.ShloMosaic.ValueIdx

/-- %0–%6: the window row number w + j as a word at (w, j). -/
def rowSum : IVec S2041x8 32 :=
  addi
    (broadcastInDim S2041x8 ![0, 1] bcast_S2041x1_S2041x8_0_1 (broadcastInDim S2041x1 ![0] bcast_S2041_S2041x1_0 (iotaInDim S2041 32 0)))
    (broadcastInDim S2041x8 ![0, 1] bcast_S1x8_S2041x8_0_1 (broadcastInDim S1x8 ![1] bcast_S8_S1x8_1 (iotaInDim S8 32 0)))

theorem rowSum_apply (w : Fin 2041) (j : Fin 8) : rowSum (ix2 w j) = BitVec.ofNat 32 w.val + BitVec.ofNat 32 j.val := rfl

/-- %7–%12: negative row numbers wrapped by 2048, laid out as [2041, 8, 1]. -/
def rowWords : IVec S2041x8x1 32 :=
  broadcastInDim S2041x8x1 ![0, 1] bcast_S2041x8_S2041x8x1_0_1
    (select (cmpi .slt rowSum (broadcastInDim S2041x8 ![] bcast_S_S2041x8 (constantI S_ 32 0#32)))
      (addi rowSum (broadcastInDim S2041x8 ![] bcast_S_S2041x8 (constantI S_ 32 2048#32))) rowSum)

theorem rowWords_apply (w : Fin 2041) (j : Fin 8) : rowWords (ix3 w j (0 : Fin 1)) = BitVec.ofNat 32 (w.val + j.val) := by
  have e : rowWords (ix3 w j (0 : Fin 1))
      = Scalar.select (IntOp.cmpi .slt (rowSum (ix2 w j)) 0#32) (IntOp.addi (rowSum (ix2 w j)) 2048#32) (rowSum (ix2 w j)) := rfl
  rw [e, rowSum_apply]
  have hw := w.isLt; have hj := j.isLt
  have hs : BitVec.ofNat 32 w.val + BitVec.ofNat 32 j.val = BitVec.ofNat 32 (w.val + j.val) := by
    simp [BitVec.ofNat_add]
  rw [hs]
  have hc : IntOp.cmpi .slt (BitVec.ofNat 32 (w.val + j.val)) 0#32 = 0#1 := by
    unfold IntOp.cmpi
    have : (BitVec.ofNat 32 (w.val + j.val)).slt 0#32 = false := by
      rw [BitVec.slt_eq_decide]  -- toInt comparison
      have hn : (BitVec.ofNat 32 (w.val + j.val)).toNat = w.val + j.val := by
        rw [BitVec.toNat_ofNat]; exact Nat.mod_eq_of_lt (by omega)
      have : (BitVec.ofNat 32 (w.val + j.val)).toInt = ((w.val + j.val : ℕ) : ℤ) := by
        rw [BitVec.toInt_eq_toNat_cond, hn]; split <;> omega
      simp [this] <;> omega
    simp [this]
  rw [hc, select_zero]

/-- The rows gathered: operand [32, 2048, 128], row numbers [2041, 8, 1]. -/
abbrev gRows : GatherDims S32x2048x128 S2041x8x1 S32x2041x8x128 := gather_S32x2048x128_S2041x8x1_S32x2041x8x128_03_1_n_n_1_2_321128

/-- %13 at (b, w, j, e): the operand at (b, the row number at (w, j, 0) read signed and clamped into [0, 2047], e). -/
theorem gather_rows_apply {α : Type} (x : S32x2048x128.Idx → α) (idx : IVec S2041x8x1 32) (b : Fin 32) (w : Fin 2041) (j : Fin 8) (e : Fin 128) :
    Host.gather gRows x idx (ix4 b w j e)
      = x (ix3 b (⟨min (idx (ix3 w j (0 : Fin 1))).toInt.toNat 2047, by omega⟩ : Fin 2048) e) := by
  unfold Host.gather
  refine congrArg x (funext fun a => Fin.ext ?_)
  match a with
  | ⟨0, _⟩ =>
    show gRows.start (ix4 b w j e) idx 0 + gRows.batchCoord (ix4 b w j e) 0 + gRows.offCoord (ix4 b w j e) 0 = b.val
    have h1 : gRows.start (ix4 b w j e) idx 0 = 0 := rfl
    have h2 : gRows.batchCoord (ix4 b w j e) 0 = 0 := rfl
    have h3 : gRows.offCoord (ix4 b w j e) 0 = b.val := rfl
    rw [h1, h2, h3, Nat.zero_add]
  | ⟨1, _⟩ =>
    show gRows.start (ix4 b w j e) idx 1 + gRows.batchCoord (ix4 b w j e) 1 + gRows.offCoord (ix4 b w j e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gRows.startIndexMap from List.mem_singleton.mpr rfl)]
    have hsi : gRows.siIdx (ix4 b w j e) ⟨List.idxOf (1 : Fin 3) gRows.startIndexMap,
        List.idxOf_lt_length_iff.2 (List.mem_singleton.mpr rfl)⟩ = ix3 w j (0 : Fin 1) := by
      funext c; refine Fin.ext ?_
      match c with
      | ⟨0, _⟩ => rfl
      | ⟨1, _⟩ => rfl
      | ⟨2, _⟩ => rfl
    rw [hsi]
    rfl
  | ⟨2, _⟩ =>
    show gRows.start (ix4 b w j e) idx 2 + gRows.batchCoord (ix4 b w j e) 2 + gRows.offCoord (ix4 b w j e) 2 = e.val
    have h1 : gRows.start (ix4 b w j e) idx 2 = 0 := rfl
    have h2 : gRows.batchCoord (ix4 b w j e) 2 = 0 := rfl
    have h3 : gRows.offCoord (ix4 b w j e) 2 = e.val := rfl
    rw [h1, h2, h3, Nat.zero_add]

/-- %14 at (b, w, e): the initial value plus the sum over the window's eight rows. -/
theorem windowSum_apply (x : FVec Ideal S32x2041x8x128 .f32) (init : FVec Ideal S_ .f32) (b : Fin 32) (w : Fin 2041) (e : Fin 128) :
    Host.reduceAdd (F := Ideal) x init reducesTo_S32x2041x8x128_S32x2041x128_d2 h_S_ (ix3 b w e)
      = init ix0 + ∑ j : Fin 8, x (ix4 b w j e) := by
  have hR : S32x2041x8x128.Reduces [2] S32x2041x128 := by decide
  refine (hostReduceAdd_apply x init _ _ _).trans ?_
  refine (Ideal.hostReduceAdd_single _ hR x _ (ix3 b w e)).trans ?_
  have hi : init (Shape.Idx.first h_S_) = init ix0 := congrArg init (eq_ix0 _)
  rw [hi]
  refine congrArg (init ix0 + ·) ?_
  show ∑ k : Fin 8, x (hR.lift (ix3 b w e) k) = _
  refine Finset.sum_congr rfl fun k _ => congrArg x ?_
  funext a; refine Fin.ext ?_
  match a with
  | ⟨0, _⟩ => rfl
  | ⟨1, _⟩ => rfl
  | ⟨2, _⟩ => rfl
  | ⟨3, _⟩ => rfl

/-- The product's dimension numbers: [32, 2041, 128] by [128, 128] over the last axis of each. -/
abbrev dRows : DotDims S32x2041x128 S128x128 S32x2041x128 := dot_S32x2041x128_S128x128_S32x2041x128_2_1_01_0_n_n

/-- %17 at (b, w, n): the row (b, w, ·) against row n of the map. -/
theorem dot_apply (l : FVec Ideal S32x2041x128 .f32) (r : FVec Ideal S128x128 .f32) (b : Fin 32) (w : Fin 2041) (n : Fin 128) :
    Host.dotGeneral (F := Ideal) dRows none l r (ix3 b w n) = ∑ k : Fin 128, l (ix3 b w k) * r (ix2 n k) := by
  refine (Ideal.dotGeneral_apply dRows none .single l r (ix3 b w n)).trans ?_
  refine Cert.LibProductIx.sum_stack_rows dRows rfl rfl rfl rfl ?_ ?_ ?_ l r b w n
  · intro j q; unfold DotDims.lhsIdx
    rw [dif_neg (show (0 : Fin 3) ∉ dRows.lhsBatch from List.not_mem_nil),
      dif_pos (show (0 : Fin 3) ∈ dRows.lhsNonContracting from by decide)]; rfl
  · intro j q; unfold DotDims.lhsIdx
    rw [dif_neg (show (1 : Fin 3) ∉ dRows.lhsBatch from List.not_mem_nil),
      dif_pos (show (1 : Fin 3) ∈ dRows.lhsNonContracting from by decide)]; rfl
  · intro j q; unfold DotDims.rhsIdx
    rw [dif_neg (show (0 : Fin 2) ∉ dRows.rhsBatch from List.not_mem_nil),
      dif_pos (show (0 : Fin 2) ∈ dRows.rhsNonContracting from by decide)]; rfl

/-- %36–%37 at (b, w, n): the target row w, whatever the batch row. -/
theorem target_apply {α : Type} (t : S2041x128.Idx → α) (b : Fin 32) (w : Fin 2041) (n : Fin 128) :
    broadcastInDim S32x2041x128 ![0, 1, 2] bcast_S1x2041x128_S32x2041x128_0_1_2
      (broadcastInDim S1x2041x128 ![1, 2] bcast_S2041x128_S1x2041x128_1_2 t) (ix3 b w n) = t (ix2 w n) := by
  refine (broadcastInDim_apply _ _ _ (ix3 b w n) (ix3 (0 : Fin 1) w n) fun a => ?_).trans ?_
  · match a with
    | ⟨0, _⟩ => rfl
    | ⟨1, _⟩ => rfl
    | ⟨2, _⟩ => rfl
  · refine broadcastInDim_apply _ _ _ (ix3 (0 : Fin 1) w n) (ix2 w n) fun a => ?_
    match a with
    | ⟨0, _⟩ => rfl
    | ⟨1, _⟩ => rfl

/-! ## Sums over rank-3 indices -/

/-- A rank-3 index set is the product of its three coordinate ranges … -/
def idxEquiv3 {A B D : ℕ} : (⟨3, ![A, B, D]⟩ : Shape).Idx ≃ Fin A × Fin B × Fin D where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {A B D : ℕ} (f : (⟨3, ![A, B, D]⟩ : Shape).Idx → M) :
    ∑ i, f i = ∑ a : Fin A, ∑ b : Fin B, ∑ c : Fin D, f (ix3 a b c) := by
  rw [← Equiv.sum_comp (idxEquiv3 (A := A) (B := B) (D := D)).symm f, Fintype.sum_prod_type]
  refine Finset.sum_congr rfl fun a _ => ?_
  rw [Fintype.sum_prod_type]
  rfl

/-! ## The two halves of the reference as pure terms -/

/-- %0–%17: the windows' means mapped through the map. -/
def refHead (a0 : FVec Ideal S32x2048x128 .f32) (a1 : FVec Ideal S128x128 .f32) : FVec Ideal S32x2041x128 .f32 :=
  Host.dotGeneral (F := Ideal) dRows none
    (Host.divf (F := Ideal)
      (Host.reduceAdd (F := Ideal) (Host.gather gRows a0 rowWords) (constant (F := Ideal) S_ .f32 0x00000000#32)
        reducesTo_S32x2041x8x128_S32x2041x128_d2 h_S_)
      (broadcastInDim S32x2041x128 ![] bcast_S_S32x2041x128 (constant (F := Ideal) S_ .f32 0x41000000#32)))
    a1

/-- %36–%41: the mean of the squared deviations from the target. -/
def refTail (l : FVec Ideal S32x2041x128 .f32) (t : FVec Ideal S2041x128 .f32) : FVec Ideal S_ .f32 :=
  Host.divf (F := Ideal)
    (Host.reduceAdd (F := Ideal)
      (mulf
        (subf l (broadcastInDim S32x2041x128 ![0, 1, 2] bcast_S1x2041x128_S32x2041x128_0_1_2
          (broadcastInDim S1x2041x128 ![1, 2] bcast_S2041x128_S1x2041x128_1_2 t)))
        (subf l (broadcastInDim S32x2041x128 ![0, 1, 2] bcast_S1x2041x128_S32x2041x128_0_1_2
          (broadcastInDim S1x2041x128 ![1, 2] bcast_S2041x128_S1x2041x128_1_2 t))))
      (constant (F := Ideal) S_ .f32 0x00000000#32) reducesTo_S32x2041x128_S_d0_1_2 h_S_)
    (constant (F := Ideal) S_ .f32 0x4AFF2000#32)

/-- The clamped row number at (w, j) is row w + j. -/
theorem clamp_row (w : Fin 2041) (j : Fin 8) :
    (⟨min (rowWords (ix3 w j (0 : Fin 1))).toInt.toNat 2047, by omega⟩ : Fin 2048) = Cert.WindowLoss.wrow w j := by
  refine Fin.ext ?_
  show min (rowWords (ix3 w j (0 : Fin 1))).toInt.toNat 2047 = w.val + j.val
  rw [rowWords_apply]
  have hw := w.isLt; have hj := j.isLt
  have hn : (BitVec.ofNat 32 (w.val + j.val)).toNat = w.val + j.val := by
    rw [BitVec.toNat_ofNat]; exact Nat.mod_eq_of_lt (by omega)
  have ht : (BitVec.ofNat 32 (w.val + j.val)).toInt = ((w.val + j.val : ℕ) : ℤ) := by
    rw [BitVec.toInt_eq_toNat_cond, hn]; split <;> omega
  rw [ht]
  omega

/-- The first half at (b, w, n). -/
theorem refHead_apply (a0 : FVec Ideal S32x2048x128 .f32) (a1 : FVec Ideal S128x128 .f32) (b : Fin 32) (w : Fin 2041) (n : Fin 128) :
    refHead a0 a1 (ix3 b w n)
      = ∑ k : Fin 128, Ideal.div (0 + ∑ j : Fin 8, a0 (ix3 b (Cert.WindowLoss.wrow w j) k)) Cert.WindowLoss.c8 * a1 (ix2 n k) := by
  unfold refHead
  refine (dot_apply _ a1 b w n).trans ?_
  refine Finset.sum_congr rfl fun k _ => congrArg (· * a1 (ix2 n k)) ?_
  rw [hostDivf_apply, windowSum_apply, broadcastInDim_scalar_apply, constant_apply, constant_apply, Ideal.ofBits_zero_f32]
  refine congrArg (fun z => Ideal.div (0 + z) Cert.WindowLoss.c8) ?_
  refine Finset.sum_congr rfl fun j _ => ?_
  rw [gather_rows_apply, clamp_row]

/-- The second half: the initial zero plus the nested sums of the squared deviations, divided by the count. -/
theorem refTail_eq (l : FVec Ideal S32x2041x128 .f32) (t : FVec Ideal S2041x128 .f32) :
    refTail l t = fun _ => Ideal.div (0 + ∑ b : Fin 32, ∑ w : Fin 2041, ∑ n : Fin 128,
      (l (ix3 b w n) - t (ix2 w n)) * (l (ix3 b w n) - t (ix2 w n))) Cert.WindowLoss.cTotal := by
  funext i
  unfold refTail
  rw [hostDivf_apply, hostReduceAdd_apply, Ideal.hostReduceAdd_total _ (fun b => b.elim0), constant_apply, constant_apply,
    Ideal.ofBits_zero_f32, sum_idx3]
  refine congrArg (fun z => Ideal.div (0 + z) Cert.WindowLoss.cTotal) ?_
  refine Finset.sum_congr rfl fun b _ => Finset.sum_congr rfl fun w _ => Finset.sum_congr rfl fun n _ => ?_
  rw [mulf_apply, subf_apply, target_apply]

/-- The reference's value: the mean squared deviation of the specification. -/
theorem value_eq (a0 : FVec Ideal S32x2048x128 .f32) (a1 : FVec Ideal S128x128 .f32) (t : FVec Ideal S2041x128 .f32) :
    refTail (refHead a0 a1) t
      = fun _ => Cert.WindowLoss.refLoss (fun b r k => a0 (ix3 b r k)) (fun n k => a1 (ix2 n k)) (fun w n => t (ix2 w n)) := by
  rw [refTail_eq]
  funext _
  unfold Cert.WindowLoss.refLoss Cert.WindowLoss.refDev
  simp only [refHead_apply]

end Cert.ReferenceIdeal.RefStages

end
-- ==== Proof.RefFold.lean ====
/-
  The fold of the reference's operations read at the buffers that matter: the product buffer is the first half
  of the program at the arguments' contents; the result buffer is the second half at the product buffer and the
  target buffer; no operation writes an argument.
-/
import proofs.«102863_j2740189135096_2_alg».proof.Proof.RefRun
import proofs.«102863_j2740189135096_2_alg».proof.Proof.RefStages

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.RefStages

/-- The product buffer after the run is the first half of the reference at the launch contents. -/
theorem v17_eq (V : Valuation τ sig (Elt Ideal)) :
    after (RefRun.ops (F := Ideal)) V (main_v17 : DevRef τ sig)
      = refHead (V (main_arg0 : DevRef τ sig)) (V (main_arg1 : DevRef τ sig)) := by
  after_results_simp
  rfl

/-- The result buffer after the run is the second half at the product buffer and the target buffer. -/
theorem v41_eq (V : Valuation τ sig (Elt Ideal)) :
    after (RefRun.ops (F := Ideal)) V (main_v41 : DevRef τ sig)
      = refTail (after (RefRun.ops (F := Ideal)) V (main_v17 : DevRef τ sig)) (after (RefRun.ops (F := Ideal)) V (main_v35 : DevRef τ sig)) := by
  unfold refTail
  after_results_simp

theorem arg0_eq (V : Valuation τ sig (Elt Ideal)) :
    after (RefRun.ops (F := Ideal)) V (main_arg0 : DevRef τ sig) = V (main_arg0 : DevRef τ sig) := by
  after_results_simp
theorem arg1_eq (V : Valuation τ sig (Elt Ideal)) :
    after (RefRun.ops (F := Ideal)) V (main_arg1 : DevRef τ sig) = V (main_arg1 : DevRef τ sig) := by
  after_results_simp
theorem arg2_eq (V : Valuation τ sig (Elt Ideal)) :
    after (RefRun.ops (F := Ideal)) V (main_arg2 : DevRef τ sig) = V (main_arg2 : DevRef τ sig) := by
  after_results_simp
theorem arg3_eq (V : Valuation τ sig (Elt Ideal)) :
    after (RefRun.ops (F := Ideal)) V (main_arg3 : DevRef τ sig) = V (main_arg3 : DevRef τ sig) := by
  after_results_simp

end Cert.ReferenceIdeal.RefFold

end
-- ==== Proof.RefTarget.lean ====
import proofs.«102863_j2740189135096_2_alg».proof.Proof.RefRun
import proofs.«102863_j2740189135096_2_alg».proof.Proof.NkChain
import Idealize.ShloMosaic.PureOps.Ideal
noncomputable section
namespace Cert.ReferenceIdeal.RefTarget
open Cert.ReferenceIdeal Cert.ReferenceIdeal.Gen Idealize.ShloMosaic Idealize.ShloMosaic.TcCoe Idealize.SL.Sem

attribute [local irreducible] Host.gather Host.remsi in
set_option maxRecDepth 8192 in
set_option maxHeartbeats 400000 in
open Idealize.ShloMosaic.StableHlo in
/-- The target buffer after the run is the position-indexed target of the two tables' launch contents: the fold unrolled,
    each operation read at its own result buffer is its function of its operands' contents and at any other buffer what
    was there; what is left is the chain of the floored remainder, the wrap of negative row numbers, the two row gathers
    and the product, term for term the definition of the target (the gathers and the remainder are never opened: both
    sides apply them to equal arguments). -/
theorem v35_eq (V : Valuation τ sig (Elt Ideal)) :
    StableHlo.after (RefRun.ops (F := Ideal)) V (main_v35 : DevRef τ sig)
      = Cert.WindowLoss.nk (F := Ideal) (V (main_arg2 : DevRef τ sig)) (V (main_arg3 : DevRef τ sig)) := by
  after_results_simp
  rfl
end Cert.ReferenceIdeal.RefTarget
end
-- ==== Proof.RefValue.lean ====
/-
  The reference's run and its value: every weakly fair execution of the reference terminates with its result
  buffer at the specification's mean squared deviation of the launch contents of the rows and the map against the
  position-indexed target of the two tables, and the four arguments unchanged.  The run gives every buffer as the
  fold of the operations; the fold at the result buffer is the second half of the program at the product buffer
  and the target buffer, the product buffer is the first half at the arguments, the target buffer is the target
  chain, and the composite of the two halves is the specification's value.
-/
import proofs.«102863_j2740189135096_2_alg».proof.Proof.RefFold
import proofs.«102863_j2740189135096_2_alg».proof.Proof.RefTarget

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The fold of the operations at the result buffer is the specification's value of the arguments' contents. -/
theorem out_eq (V : Valuation τ sig (Elt Ideal)) :
    StableHlo.after (RefRun.ops (F := Ideal)) V (main_v41 : DevRef τ sig)
      = fun _ => Cert.WindowLoss.refLoss
          (fun b r k => V (main_arg0 : DevRef τ sig) (ix3 b r k))
          (fun n k => V (main_arg1 : DevRef τ sig) (ix2 n k))
          (fun w n => Cert.WindowLoss.nk (F := Ideal) (V (main_arg2 : DevRef τ sig)) (V (main_arg3 : DevRef τ sig)) (ix2 w n)) := by
  rw [RefFold.v41_eq, RefFold.v17_eq, RefTarget.v35_eq]
  exact RefStages.value_eq _ _ _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
          = (fun _ => Cert.WindowLoss.refLoss
              (fun b r k => m ((c.tc : Thread nD τ).loc main_arg0) (ix3 b r k))
              (fun n k => m ((c.tc : Thread nD τ).loc main_arg1) (ix2 n k))
              (fun w n => Cert.WindowLoss.nk (F := Ideal) (m ((c.tc : Thread nD τ).loc main_arg2)) (m ((c.tc : Thread nD τ).loc main_arg3)) (ix2 w n)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v41).trans (out_eq (StableHlo.launchContents m c)),
       (h c main_arg0).trans (RefFold.arg0_eq (StableHlo.launchContents m c)),
       (h c main_arg1).trans (RefFold.arg1_eq (StableHlo.launchContents m c)),
       (h c main_arg2).trans (RefFold.arg2_eq (StableHlo.launchContents m c)),
       (h c main_arg3).trans (RefFold.arg3_eq (StableHlo.launchContents m c))⟩)
    (RefRun.run_main m ρ)

end Cert.ReferenceIdeal.RefValue

end
-- ==== Proof.lean ====
/-
  Sliding-window mean, linear map and mean squared deviation from a position-indexed target: the fused
  kernel against the plain reference, on the extended reals.

  Both programs compute, for every batch row b, window w of 8 consecutive sequence rows and column n,
  the deviation  d(b, w, n) = Σ_k mean_w(x_b)(k) · M(n, k) − nk(w, n)  and return Σ d² / (32 · 2041 · 128).
  The reference gathers the windows, averages them by a division by 8 and contracts with M; the kernel
  adds a window up as a tree of pairwise sums, contracts with the transposed map pre-scaled by 0.125
  on the host, and accumulates the squares per batch row (four rows per grid point), the host adding the
  32 row sums.  The target nk is built by the same operations in both programs and stays an opaque
  function of the two tables (NkChain.lean).  Spec.lean states the two arrangements, Algebra.lean that
  they are one function of the inputs — commutativity and associativity of + and · on the extended
  reals, and  s / 8 = s · (1/8) — so the finiteness precondition is never opened.

  The three frames are the generated frame runs (the reference's is its run with the result dropped);
  the idealization rewrote nothing, so `preserves` is trivial; `algebraic` puts the two read-back
  runs (KernelRun.lean, RefValue.lean) side by side: both end at `refLoss` of the launch contents.
-/
import proofs.«102863_j2740189135096_2_alg».proof.Defs
import proofs.«102863_j2740189135096_2_alg».proof.Proof.Gen.Kernel
import proofs.«102863_j2740189135096_2_alg».proof.Proof.Gen.Kernel.Frame
import proofs.«102863_j2740189135096_2_alg».proof.Proof.Gen.KernelIdeal
import proofs.«102863_j2740189135096_2_alg».proof.Proof.Gen.KernelIdeal.Frame
import proofs.«102863_j2740189135096_2_alg».proof.Proof.Gen.ReferenceIdeal
import proofs.«102863_j2740189135096_2_alg».proof.Proof.Gen.Pre_finite_inputs
import proofs.«102863_j2740189135096_2_alg».proof.Proof.KernelRun
import proofs.«102863_j2740189135096_2_alg».proof.Proof.RefValue

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its read-back run with the result dropped. -/
theorem frame_reference : Cert.frame_ReferenceIdeal := fun m ρ _ =>
  (θ_run Cert.ReferenceIdeal.defs _ _).mono (fun _ h c => (h c).2) (Cert.ReferenceIdeal.RefValue.run m ρ)

/-- From memories that agree on the four arguments both programs end at the reference's mean squared
    deviation of those arguments: the kernel by its read-back run and the law of the two arrangements, the
    reference by its own run. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
